-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v42)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v42) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v98) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg5 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  main_v23

def fn {F : FTy → Type} [FloatOps F] (main_arg0 : FVec F S50000x128 .f32) (main_arg1 : IVec S2x800000 32) (main_arg2 : FVec F S128x128 .f32) (main_arg3 : FVec F S128 .f32) (main_arg4 : FVec F S128x128 .f32) (main_arg5 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_v13 main_v16
-- ==== Kernel.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S1x800000 : Shape := ⟨2, ![1, 800000]⟩
abbrev S800000 : Shape := ⟨1, ![800000]⟩
abbrev S50000 : Shape := ⟨1, ![50000]⟩
abbrev S850000 : Shape := ⟨1, ![850000]⟩
abbrev S_ : Shape := ⟨0, ![]⟩
abbrev S850000x1 : Shape := ⟨2, ![850000, 1]⟩
abbrev S50000x1 : Shape := ⟨2, ![50000, 1]⟩
abbrev S5000x128 : Shape := ⟨2, ![5000, 128]⟩
abbrev S5000x1 : Shape := ⟨2, ![5000, 1]⟩
abbrev S850000x128 : Shape := ⟨2, ![850000, 128]⟩
abbrev S1x128 : Shape := ⟨2, ![1, 128]⟩

abbrev nBuf : Space → Nat
  | .hbm => 62
  | .vmem => 22
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S1x800000, .i32⟩
  | .hbm, ⟨7, _⟩ => ⟨S800000, .i32⟩
  | .hbm, ⟨8, _⟩ => ⟨S1x800000, .i32⟩
  | .hbm, ⟨9, _⟩ => ⟨S800000, .i32⟩
  | .hbm, ⟨10, _⟩ => ⟨S50000, .i32⟩
  | .hbm, ⟨11, _⟩ => ⟨S850000, .i32⟩
  | .hbm, ⟨12, _⟩ => ⟨S850000, .i32⟩
  | .hbm, ⟨13, _⟩ => ⟨S_, .f32⟩
  | .hbm, ⟨14, _⟩ => ⟨S850000, .f32⟩
  | .hbm, ⟨15, _⟩ => ⟨S_, .f32⟩
  | .hbm, ⟨16, _⟩ => ⟨S50000, .f32⟩
  | .hbm, ⟨17, _⟩ => ⟨S850000x1, .i32⟩
  | .hbm, ⟨18, _⟩ => ⟨S50000, .f32⟩
  | .hbm, ⟨19, _⟩ => ⟨S_, .f32⟩
  | .hbm, ⟨20, _⟩ => ⟨S50000, .f32⟩
  | .hbm, ⟨21, _⟩ => ⟨S50000, .i1⟩
  | .hbm, ⟨22, _⟩ => ⟨S_, .f32⟩
  | .hbm, ⟨23, _⟩ => ⟨S50000, .f32⟩
  | .hbm, ⟨24, _⟩ => ⟨S50000, .f32⟩
  | .hbm, ⟨25, _⟩ => ⟨S50000, .f32⟩
  | .hbm, ⟨26, _⟩ => ⟨S_, .f32⟩
  | .hbm, ⟨27, _⟩ => ⟨S_, .f32⟩
  | .hbm, ⟨28, _⟩ => ⟨S50000, .f32⟩
  | .hbm, ⟨29, _⟩ => ⟨S50000, .f32⟩
  | .hbm, ⟨30, _⟩ => ⟨S50000x1, .f32⟩
  | .hbm, ⟨31, _⟩ => ⟨S50000x128, .f32⟩
  | .hbm, ⟨32, _⟩ => ⟨S_, .i32⟩
  | .hbm, ⟨33, _⟩ => ⟨S850000, .i32⟩
  | .hbm, ⟨34, _⟩ => ⟨S850000, .i1⟩
  | .hbm, ⟨35, _⟩ => ⟨S_, .i32⟩
  | .hbm, ⟨36, _⟩ => ⟨S850000, .i32⟩
  | .hbm, ⟨37, _⟩ => ⟨S850000, .i32⟩
  | .hbm, ⟨38, _⟩ => ⟨S850000, .i32⟩
  | .hbm, ⟨39, _⟩ => ⟨S850000x1, .i32⟩
  | .hbm, ⟨40, _⟩ => ⟨S850000x128, .f32⟩
  | .hbm, ⟨41, _⟩ => ⟨S_, .f32⟩
  | .hbm, ⟨42, _⟩ => ⟨S50000x128, .f32⟩
  | .hbm, ⟨43, _⟩ => ⟨S850000x1, .i32⟩
  | .hbm, ⟨44, _⟩ => ⟨S50000x128, .f32⟩
  | .hbm, ⟨45, _⟩ => ⟨S1x128, .f32⟩
  | .hbm, ⟨46, _⟩ => ⟨S50000x128, .f32⟩
  | .hbm, ⟨47, _⟩ => ⟨S_, .i32⟩
  | .hbm, ⟨48, _⟩ => ⟨S850000, .i32⟩
  | .hbm, ⟨49, _⟩ => ⟨S850000, .i1⟩
  | .hbm, ⟨50, _⟩ => ⟨S_, .i32⟩
  | .hbm, ⟨51, _⟩ => ⟨S850000, .i32⟩
  | .hbm, ⟨52, _⟩ => ⟨S850000, .i32⟩
  | .hbm, ⟨53, _⟩ => ⟨S850000, .i32⟩
  | .hbm, ⟨54, _⟩ => ⟨S850000x1, .i32⟩
  | .hbm, ⟨55, _⟩ => ⟨S850000x128, .f32⟩
  | .hbm, ⟨56, _⟩ => ⟨S_, .f32⟩
  | .hbm, ⟨57, _⟩ => ⟨S50000x128, .f32⟩
  | .hbm, ⟨58, _⟩ => ⟨S850000x1, .i32⟩
  | .hbm, ⟨59, _⟩ => ⟨S50000x128, .f32⟩
  | .hbm, ⟨60, _⟩ => ⟨S1x128, .f32⟩
  | .hbm, ⟨61, _⟩ => ⟨S50000x128, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x1, .f32⟩
  | .local _ .vmem, ⟨4, _⟩ => ⟨S5000x1, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S5000x128, .f32⟩
  | .local _ .vmem, ⟨9, _⟩ => ⟨S5000x1, .f32⟩
  | .local _ .vmem, ⟨10, _⟩ => ⟨S5000x1, .f32⟩
  | .local _ .vmem, ⟨11, _⟩ => ⟨S1x128, .f32⟩
  | .local _ .vmem, ⟨12, _⟩ => ⟨S128x128, .f32⟩
  | .local _ .vmem, ⟨13, _⟩ => ⟨S5000x128, .f32⟩
  | .local _ .vmem, ⟨14, _⟩ => ⟨S5000x128, .f32⟩
  | .local _ .vmem, ⟨15, _⟩ => ⟨S5000x128, .f32⟩
  | .local _ .vmem, ⟨16, _⟩ => ⟨S5000x128, .f32⟩
  | .local _ .vmem, ⟨17, _⟩ => ⟨S5000x1, .f32⟩
  | .local _ .vmem, ⟨18, _⟩ => ⟨S5000x1, .f32⟩
  | .local _ .vmem, ⟨19, _⟩ => ⟨S1x128, .f32⟩
  | .local _ .vmem, ⟨20, _⟩ => ⟨S5000x128, .f32⟩
  | .local _ .vmem, ⟨21, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_3 : Ref sig .tc := ⟨.hbm, 26, rfl⟩
abbrev main_call0_v0 : Ref sig .tc := ⟨.hbm, 27, rfl⟩
abbrev main_call0_v1 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_c : Ref sig .tc := ⟨.hbm, 32, rfl⟩
abbrev main_v19 : Ref sig .tc := ⟨.hbm, 33, rfl⟩
abbrev main_v20 : Ref sig .tc := ⟨.hbm, 34, rfl⟩
abbrev main_c_4 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_cst_5 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_cst_8 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg4_1 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg1_1 : Ref sig .tc := ⟨.vmem, 18, rfl⟩
abbrev cc2_stg2_0 : Ref sig .tc := ⟨.vmem, 19, rfl⟩
abbrev cc2_stg3_0 : Ref sig .tc := ⟨.vmem, 20, rfl⟩
abbrev cc2_stg3_1 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem4_0 : DmaSem sig := 13
abbrev cc1_sem4_1 : DmaSem sig := 14
abbrev cc2_sem0_0 : DmaSem sig := 15
abbrev cc2_sem0_1 : DmaSem sig := 16
abbrev cc2_sem1_0 : DmaSem sig := 17
abbrev cc2_sem1_1 : DmaSem sig := 18
abbrev cc2_sem2_0 : DmaSem sig := 19
abbrev cc2_sem3_0 : DmaSem sig := 20
abbrev cc2_sem3_1 : DmaSem sig := 21

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S5000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S5000x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  concatenates_S800000_S50000_S850000_d0 : Shape.Concatenates [S800000, S50000] S850000 0
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  shapeCasts_S50000_S50000x1 : S50000.ShapeCasts S50000x1
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  bcast_S_S50000x128 : S_.BroadcastsInDim S50000x128 (![] : Fin 0 → Fin S50000x128.rank)
  shapeCasts_S128_S1x128 : S128.ShapeCasts S1x128
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  scatter_S50000_S850000x1_S850000_n_0_0_1_wf : ScatterDims.WF S50000 S850000x1 S850000 [] [0] [0] 1
  dot_S5000x128_S128x128_S5000x128_1_0_0_1_n_n_wf : DotDims.WF S5000x128 S128x128 S5000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x1.size a ≤ S50000x1.size a
  hwx0_2 : ∀ i : grid0.Coords, EltTy.bits .f32 = 32 ∨ (Rect.block (s := S50000x1) S5000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S50000x128.size a
  hwx0_3 : ∀ i : grid0.Coords, EltTy.bits .f32 = 32 ∨ (Rect.block (s := S50000x128) S5000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x1.size a ≤ S50000x1.size a
  hwx1_1 : ∀ i : grid1.Coords, EltTy.bits .f32 = 32 ∨ (Rect.block (s := S50000x1) S5000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x128.size a ≤ S50000x128.size a
  hwx1_4 : ∀ i : grid1.Coords, EltTy.bits .f32 = 32 ∨ (Rect.block (s := S50000x128) S5000x128.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x1.size a ≤ S50000x1.size a
  hwx2_1 : ∀ i : grid2.Coords, EltTy.bits .f32 = 32 ∨ (Rect.block (s := S50000x1) S5000x1.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x128.size a ≤ S50000x128.size a
  hwx2_3 : ∀ i : grid2.Coords, EltTy.bits .f32 = 32 ∨ (Rect.block (s := S50000x128) S5000x128.size (cc2_transform_3 i) (hinb2_3 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v17) S5000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v18) S5000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v28) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v17) S5000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v29) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg4) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v30) S5000x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v40) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v17) S5000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v41) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v42) S5000x128.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S1x800000 : Shape := ⟨2, ![1, 800000]⟩
abbrev S800000 : Shape := ⟨1, ![800000]⟩
abbrev S50000 : Shape := ⟨1, ![50000]⟩
abbrev S850000 : Shape := ⟨1, ![850000]⟩
abbrev S_ : Shape := ⟨0, ![]⟩
abbrev S850000x1 : Shape := ⟨2, ![850000, 1]⟩
abbrev S850000x128 : Shape := ⟨2, ![850000, 128]⟩
abbrev S1x128 : Shape := ⟨2, ![1, 128]⟩

abbrev nBuf : Space → Nat
  | .hbm => 135
  | .vmem => 0
  | .smem => 0
  | _ => 0

abbrev hbmTy0_0 (i : Nat) : BufTy := match i % 128 with
  | 0 => ⟨S50000x128, .f32⟩
  | 1 => ⟨S2x800000, .i32⟩
  | 2 => ⟨S128x128, .f32⟩
  | 3 => ⟨S128, .f32⟩
  | 4 => ⟨S128x128, .f32⟩
  | 5 => ⟨S128, .f32⟩
  | 6 => ⟨S1x800000, .i32⟩
  | 7 => ⟨S800000, .i32⟩
  | 8 => ⟨S1x800000, .i32⟩
  | 9 => ⟨S800000, .i32⟩
  | 10 => ⟨S50000, .i32⟩
  | 11 => ⟨S850000, .i32⟩
  | 12 => ⟨S850000, .i32⟩
  | 13 => ⟨S_, .f32⟩
  | 14 => ⟨S850000, .f32⟩
  | 15 => ⟨S_, .f32⟩
  | 16 => ⟨S50000, .f32⟩
  | 17 => ⟨S850000x1, .i32⟩
  | 18 => ⟨S50000, .f32⟩
  | 19 => ⟨S_, .f32⟩
  | 20 => ⟨S50000, .f32⟩
  | 21 => ⟨S50000, .i1⟩
  | 22 => ⟨S_, .f32⟩
  | 23 => ⟨S50000, .f32⟩
  | 24 => ⟨S50000, .f32⟩
  | 25 => ⟨S50000, .f32⟩
  | 26 => ⟨S_, .f32⟩
  | 27 => ⟨S_, .f32⟩
  | 28 => ⟨S50000, .f32⟩
  | 29 => ⟨S50000, .f32⟩
  | 30 => ⟨S_, .i32⟩
  | 31 => ⟨S850000, .i32⟩
  | 32 => ⟨S850000, .i1⟩
  | 33 => ⟨S_, .i32⟩
  | 34 => ⟨S850000, .i32⟩
  | 35 => ⟨S850000, .i32⟩
  | 36 => ⟨S850000, .i32⟩
  | 37 => ⟨S850000x1, .i32⟩
  | 38 => ⟨S850000, .f32⟩
  | 39 => ⟨S_, .i32⟩
  | 40 => ⟨S850000, .i32⟩
  | 41 => ⟨S850000, .i1⟩
  | 42 => ⟨S_, .i32⟩
  | 43 => ⟨S850000, .i32⟩
  | 44 => ⟨S850000, .i32⟩
  | 45 => ⟨S850000, .i32⟩
  | 46 => ⟨S850000x1, .i32⟩
  | 47 => ⟨S850000, .f32⟩
  | 48 => ⟨S850000, .f32⟩
  | 49 => ⟨S50000x128, .f32⟩
  | 50 => ⟨S_, .i32⟩
  | 51 => ⟨S850000, .i32⟩
  | 52 => ⟨S850000, .i1⟩
  | 53 => ⟨S_, .i32⟩
  | 54 => ⟨S850000, .i32⟩
  | 55 => ⟨S850000, .i32⟩
  | 56 => ⟨S850000, .i32⟩
  | 57 => ⟨S850000x1, .i32⟩
  | 58 => ⟨S850000x128, .f32⟩
  | 59 => ⟨S850000x1, .f32⟩
  | 60 => ⟨S850000x128, .f32⟩
  | 61 => ⟨S850000x128, .f32⟩
  | 62 => ⟨S_, .f32⟩
  | 63 => ⟨S50000x128, .f32⟩
  | 64 => ⟨S850000x1, .i32⟩
  | 65 => ⟨S50000x128, .f32⟩
  | 66 => ⟨S1x128, .f32⟩
  | 67 => ⟨S50000x128, .f32⟩
  | 68 => ⟨S50000x128, .f32⟩
  | 69 => ⟨S_, .f32⟩
  | 70 => ⟨S50000x128, .f32⟩
  | 71 => ⟨S50000x128, .f32⟩
  | 72 => ⟨S1x800000, .i32⟩
  | 73 => ⟨S800000, .i32⟩
  | 74 => ⟨S1x800000, .i32⟩
  | 75 => ⟨S800000, .i32⟩
  | 76 => ⟨S50000, .i32⟩
  | 77 => ⟨S850000, .i32⟩
  | 78 => ⟨S850000, .i32⟩
  | 79 => ⟨S_, .f32⟩
  | 80 => ⟨S850000, .f32⟩
  | 81 => ⟨S_, .f32⟩
  | 82 => ⟨S50000, .f32⟩
  | 83 => ⟨S850000x1, .i32⟩
  | 84 => ⟨S50000, .f32⟩
  | 85 => ⟨S_, .f32⟩
  | 86 => ⟨S50000, .f32⟩
  | 87 => ⟨S50000, .i1⟩
  | 88 => ⟨S_, .f32⟩
  | 89 => ⟨S50000, .f32⟩
  | 90 => ⟨S50000, .f32⟩
  | 91 => ⟨S50000, .f32⟩
  | 92 => ⟨S_, .f32⟩
  | 93 => ⟨S_, .f32⟩
  | 94 => ⟨S50000, .f32⟩
  | 95 => ⟨S50000, .f32⟩
  | 96 => ⟨S_, .i32⟩
  | 97 => ⟨S850000, .i32⟩
  | 98 => ⟨S850000, .i1⟩
  | 99 => ⟨S_, .i32⟩
  | 100 => ⟨S850000, .i32⟩
  | 101 => ⟨S850000, .i32⟩
  | 102 => ⟨S850000, .i32⟩
  | 103 => ⟨S850000x1, .i32⟩
  | 104 => ⟨S850000, .f32⟩
  | 105 => ⟨S_, .i32⟩
  | 106 => ⟨S850000, .i32⟩
  | 107 => ⟨S850000, .i1⟩
  | 108 => ⟨S_, .i32⟩
  | 109 => ⟨S850000, .i32⟩
  | 110 => ⟨S850000, .i32⟩
  | 111 => ⟨S850000, .i32⟩
  | 112 => ⟨S850000x1, .i32⟩
  | 113 => ⟨S850000, .f32⟩
  | 114 => ⟨S850000, .f32⟩
  | 115 => ⟨S50000x128, .f32⟩
  | 116 => ⟨S_, .i32⟩
  | 117 => ⟨S850000, .i32⟩
  | 118 => ⟨S850000, .i1⟩
  | 119 => ⟨S_, .i32⟩
  | 120 => ⟨S850000, .i32⟩
  | 121 => ⟨S850000, .i32⟩
  | 122 => ⟨S850000, .i32⟩
  | 123 => ⟨S850000x1, .i32⟩
  | 124 => ⟨S850000x128, .f32⟩
  | 125 => ⟨S850000x1, .f32⟩
  | 126 => ⟨S850000x128, .f32⟩
  | 127 => ⟨S850000x128, .f32⟩
  | _ => ⟨S50000x128, .f32⟩

abbrev hbmTy0_1 (i : Nat) : BufTy := match i % 128 with
  | 0 => ⟨S_, .f32⟩
  | 1 => ⟨S50000x128, .f32⟩
  | 2 => ⟨S850000x1, .i32⟩
  | 3 => ⟨S50000x128, .f32⟩
  | 4 => ⟨S1x128, .f32⟩
  | 5 => ⟨S50000x128, .f32⟩
  | 6 => ⟨S50000x128, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_3 : Ref sig .tc := ⟨.hbm, 26, rfl⟩
abbrev main_call0_v0 : Ref sig .tc := ⟨.hbm, 27, rfl⟩
abbrev main_call0_v1 : Ref sig .tc := ⟨.hbm, 28, rfl⟩
abbrev main_v16 : Ref sig .tc := ⟨.hbm, 29, rfl⟩
abbrev main_c : Ref sig .tc := ⟨.hbm, 30, rfl⟩
abbrev main_v17 : Ref sig .tc := ⟨.hbm, 31, rfl⟩
abbrev main_v18 : Ref sig .tc := ⟨.hbm, 32, rfl⟩
abbrev main_c_4 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_c_6 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_c_8 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_9 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_call1_cst : Ref sig .tc := ⟨.hbm, 69, rfl⟩
abbrev main_call1_v0 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_cst_10 : Ref sig .tc := ⟨.hbm, 79, rfl⟩
abbrev main_v57 : Ref sig .tc := ⟨.hbm, 80, rfl⟩
abbrev main_cst_11 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_cst_12 : Ref sig .tc := ⟨.hbm, 85, rfl⟩
abbrev main_v61 : Ref sig .tc := ⟨.hbm, 86, rfl⟩
abbrev main_v62 : Ref sig .tc := ⟨.hbm, 87, rfl⟩
abbrev main_cst_13 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_cst_14 : Ref sig .tc := ⟨.hbm, 92, rfl⟩
abbrev main_call2_v0 : Ref sig .tc := ⟨.hbm, 93, rfl⟩
abbrev main_call2_v1 : Ref sig .tc := ⟨.hbm, 94, rfl⟩
abbrev main_v66 : Ref sig .tc := ⟨.hbm, 95, rfl⟩
abbrev main_c_15 : Ref sig .tc := ⟨.hbm, 96, rfl⟩
abbrev main_v67 : Ref sig .tc := ⟨.hbm, 97, rfl⟩
abbrev main_v68 : Ref sig .tc := ⟨.hbm, 98, rfl⟩
abbrev main_c_16 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_c_17 : Ref sig .tc := ⟨.hbm, 105, rfl⟩
abbrev main_v74 : Ref sig .tc := ⟨.hbm, 106, rfl⟩
abbrev main_v75 : Ref sig .tc := ⟨.hbm, 107, rfl⟩
abbrev main_c_18 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_c_19 : Ref sig .tc := ⟨.hbm, 116, rfl⟩
abbrev main_v83 : Ref sig .tc := ⟨.hbm, 117, rfl⟩
abbrev main_v84 : Ref sig .tc := ⟨.hbm, 118, rfl⟩
abbrev main_c_20 : Ref sig .tc := ⟨.hbm, 119, rfl⟩
abbrev main_v85 : Ref sig .tc := ⟨.hbm, 120, rfl⟩
abbrev main_v86 : Ref sig .tc := ⟨.hbm, 121, rfl⟩
abbrev main_v87 : Ref sig .tc := ⟨.hbm, 122, rfl⟩
abbrev main_v88 : Ref sig .tc := ⟨.hbm, 123, rfl⟩
abbrev main_v89 : Ref sig .tc := ⟨.hbm, 124, rfl⟩
abbrev main_v90 : Ref sig .tc := ⟨.hbm, 125, rfl⟩
abbrev main_v91 : Ref sig .tc := ⟨.hbm, 126, rfl⟩
abbrev main_v92 : Ref sig .tc := ⟨.hbm, 127, rfl⟩
abbrev main_cst_21 : Ref sig .tc := ⟨.hbm, 128, rfl⟩
abbrev main_v93 : Ref sig .tc := ⟨.hbm, 129, rfl⟩
abbrev main_v94 : Ref sig .tc := ⟨.hbm, 130, rfl⟩
abbrev main_v95 : Ref sig .tc := ⟨.hbm, 131, rfl⟩
abbrev main_v96 : Ref sig .tc := ⟨.hbm, 132, rfl⟩
abbrev main_v97 : Ref sig .tc := ⟨.hbm, 133, rfl⟩
abbrev main_v98 : Ref sig .tc := ⟨.hbm, 134, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  concatenates_S800000_S50000_S850000_d0 : Shape.Concatenates [S800000, S50000] S850000 0
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S50000x128_S128x128_S50000x128_1_0_0_1_n_n_wf : DotDims.WF S50000x128 S128x128 S50000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf

class Facts : Prop extends Facts₀ where

variable [Facts]
-- ==== Proof.KRun.lean ====
/-
  The fused program's run with its result named: every weakly fair execution of the program from a memory with zero
  counters terminates without a fault, the result buffer holding the last region's output array as the fold of the
  buffer contents through the host stretches and the three regions leaves it, and the six argument arrays as launched.
  The contents at each boundary are the generated frame's `W0 … W8`; this is its launch over the same segments, read
  at one more buffer at the end.
-/
import proofs.«134857_j43654047596701_2_alg».proof.Proof.Gen.KernelIdeal.Frame

set_option maxRecDepth 16384

noncomputable section

namespace Cert.KernelIdeal.RunV

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run, with the result buffer `main_v42` at the contents the last boundary gives it. -/
theorem run_value : θ_run defs (onTc (τ := τ) (main (F := F))) ⟨m, fun _ => 0, ρ⟩ (fun r => ∀ c : Dev nD,
      r.2.mem ((c.tc : Thread nD τ).loc main_v42) = W8 m ρ c (Proc.devRef .tc main_v42)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v42 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c)⟩)

end Cert.KernelIdeal.RunV

end
-- ==== Proof.KTransport.lean ====
/-
  Buffers that a stretch of host operations or a region leaves alone, carried from one boundary of the fused program
  back to an earlier one: the per-node factor column and the two edge lists are written once, before the first region,
  and only read afterwards (a region reads an input window's array and writes it back unchanged); the weights and
  biases are arguments and are never written.
-/
import proofs.«134857_j43654047596701_2_alg».proof.Proof.Gen.KernelIdeal.Frame
import Idealize.ShloMosaic.PureOps.Ideal

set_option maxRecDepth 16384

noncomputable section

namespace Cert.KernelIdeal.HostV

open Cert.KernelIdeal Cert.KernelIdeal.Gen
open Idealize.ShloMosaic Idealize.ShloMosaic.TcCoe Idealize.ShloMosaic.Tactic Idealize.SL.Sem
open Idealize.ShloMosaic.Pipeline (Dat Cfg Window)

variable (m : (ℓ : Loc nD τ sig) → Buf (Elt Ideal) ℓ) (ρ : Dev nD → PrngReg) (c : Dev nD)

/-- The factor column at the last region's entry is the one written before the first region. -/
theorem W7_v17 : W7 (F := Ideal) m ρ c (Proc.devRef .tc main_v17) = W3 (F := Ideal) m ρ c (Proc.devRef .tc main_v17) :=
  calc W7 (F := Ideal) m ρ c (Proc.devRef .tc main_v17)
    _ = W6 (F := Ideal) m ρ c (Proc.devRef .tc main_v17) := StableHlo.after_of_forall_not_mem (b := Proc.devRef .tc main_v17) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 (F := Ideal) m ρ c (Proc.devRef .tc main_v17) := (W6_arr m ρ c 1).trans (((dat1 (V5 m ρ) c).arrAt_in 1 rfl _).trans (A_eq1 (V5 m ρ) c 1))
    _ = W4 (F := Ideal) m ρ c (Proc.devRef .tc main_v17) := StableHlo.after_of_forall_not_mem (b := Proc.devRef .tc main_v17) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 (F := Ideal) m ρ c (Proc.devRef .tc main_v17) := (W4_arr m ρ c 2).trans (((dat0 (V3 m ρ) c).arrAt_in 2 rfl _).trans (A_eq0 (V3 m ρ) c 2))

/-- The factor column at the second region's entry is the one written before the first region. -/
theorem W5_v17 : W5 (F := Ideal) m ρ c (Proc.devRef .tc main_v17) = W3 (F := Ideal) m ρ c (Proc.devRef .tc main_v17) :=
  calc W5 (F := Ideal) m ρ c (Proc.devRef .tc main_v17)
    _ = W4 (F := Ideal) m ρ c (Proc.devRef .tc main_v17) := StableHlo.after_of_forall_not_mem (b := Proc.devRef .tc main_v17) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 (F := Ideal) m ρ c (Proc.devRef .tc main_v17) := (W4_arr m ρ c 2).trans (((dat0 (V3 m ρ) c).arrAt_in 2 rfl _).trans (A_eq0 (V3 m ρ) c 2))

/-- The source list after the second region is the one written before the first. -/
theorem W6_v5 : W6 (F := Ideal) m ρ c (Proc.devRef .tc main_v5) = W3 (F := Ideal) m ρ c (Proc.devRef .tc main_v5) :=
  calc W6 (F := Ideal) m ρ c (Proc.devRef .tc main_v5)
    _ = W5 (F := Ideal) m ρ c (Proc.devRef .tc main_v5) := W6_of_ne m ρ c main_v5 (by decide)
    _ = W4 (F := Ideal) m ρ c (Proc.devRef .tc main_v5) := StableHlo.after_of_forall_not_mem (b := Proc.devRef .tc main_v5) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 (F := Ideal) m ρ c (Proc.devRef .tc main_v5) := W4_of_ne m ρ c main_v5 (by decide)

/-- The source list after the first region is the one written before it. -/
theorem W4_v5 : W4 (F := Ideal) m ρ c (Proc.devRef .tc main_v5) = W3 (F := Ideal) m ρ c (Proc.devRef .tc main_v5) :=
  calc W4 (F := Ideal) m ρ c (Proc.devRef .tc main_v5)
    _ = W3 (F := Ideal) m ρ c (Proc.devRef .tc main_v5) := W4_of_ne m ρ c main_v5 (by decide)

/-- The target list after the second region is the one written before the first. -/
theorem W6_v6 : W6 (F := Ideal) m ρ c (Proc.devRef .tc main_v6) = W3 (F := Ideal) m ρ c (Proc.devRef .tc main_v6) :=
  calc W6 (F := Ideal) m ρ c (Proc.devRef .tc main_v6)
    _ = W5 (F := Ideal) m ρ c (Proc.devRef .tc main_v6) := W6_of_ne m ρ c main_v6 (by decide)
    _ = W4 (F := Ideal) m ρ c (Proc.devRef .tc main_v6) := StableHlo.after_of_forall_not_mem (b := Proc.devRef .tc main_v6) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 (F := Ideal) m ρ c (Proc.devRef .tc main_v6) := W4_of_ne m ρ c main_v6 (by decide)

/-- The target list after the first region is the one written before it. -/
theorem W4_v6 : W4 (F := Ideal) m ρ c (Proc.devRef .tc main_v6) = W3 (F := Ideal) m ρ c (Proc.devRef .tc main_v6) :=
  calc W4 (F := Ideal) m ρ c (Proc.devRef .tc main_v6)
    _ = W3 (F := Ideal) m ρ c (Proc.devRef .tc main_v6) := W4_of_ne m ρ c main_v6 (by decide)

/-- The features at the first region's entry are the argument. -/
theorem W3_arg0 : W3 (F := Ideal) m ρ c (Proc.devRef .tc main_arg0) = m ((c : Thread nD τ).loc main_arg0) :=
  calc W3 (F := Ideal) m ρ c (Proc.devRef .tc main_arg0)
    _ = W2 (F := Ideal) m ρ c (Proc.devRef .tc main_arg0) := StableHlo.after_of_forall_not_mem (b := Proc.devRef .tc main_arg0) _ _ (List.forall_iff_forall_mem.mp (by
          simp only [hostOps0_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 (F := Ideal) m ρ c (Proc.devRef .tc main_arg0) := StableHlo.after_of_forall_not_mem (b := Proc.devRef .tc main_arg0) _ _ (List.forall_iff_forall_mem.mp (by
          simp only [hostOps0_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 (F := Ideal) m ρ c (Proc.devRef .tc main_arg0) := StableHlo.after_of_forall_not_mem (b := Proc.devRef .tc main_arg0) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg0) := rfl

/-- The first weights at the first region's entry are the argument. -/
theorem W3_arg2 : W3 (F := Ideal) m ρ c (Proc.devRef .tc main_arg2) = m ((c : Thread nD τ).loc main_arg2) :=
  calc W3 (F := Ideal) m ρ c (Proc.devRef .tc main_arg2)
    _ = W2 (F := Ideal) m ρ c (Proc.devRef .tc main_arg2) := StableHlo.after_of_forall_not_mem (b := Proc.devRef .tc main_arg2) _ _ (List.forall_iff_forall_mem.mp (by
          simp only [hostOps0_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 (F := Ideal) m ρ c (Proc.devRef .tc main_arg2) := StableHlo.after_of_forall_not_mem (b := Proc.devRef .tc main_arg2) _ _ (List.forall_iff_forall_mem.mp (by
          simp only [hostOps0_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 (F := Ideal) m ρ c (Proc.devRef .tc main_arg2) := StableHlo.after_of_forall_not_mem (b := Proc.devRef .tc main_arg2) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg2) := rfl

/-- The edge array at the first region's entry is the argument. -/
theorem W3_arg1 : W3 (F := Ideal) m ρ c (Proc.devRef .tc main_arg1) = m ((c : Thread nD τ).loc main_arg1) :=
  calc W3 (F := Ideal) m ρ c (Proc.devRef .tc main_arg1)
    _ = W2 (F := Ideal) m ρ c (Proc.devRef .tc main_arg1) := StableHlo.after_of_forall_not_mem (b := Proc.devRef .tc main_arg1) _ _ (List.forall_iff_forall_mem.mp (by
          simp only [hostOps0_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 (F := Ideal) m ρ c (Proc.devRef .tc main_arg1) := StableHlo.after_of_forall_not_mem (b := Proc.devRef .tc main_arg1) _ _ (List.forall_iff_forall_mem.mp (by
          simp only [hostOps0_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 (F := Ideal) m ρ c (Proc.devRef .tc main_arg1) := StableHlo.after_of_forall_not_mem (b := Proc.devRef .tc main_arg1) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg1) := rfl

/-- The first bias after the first region is the argument. -/
theorem W4_arg3 : W4 (F := Ideal) m ρ c (Proc.devRef .tc main_arg3) = m ((c : Thread nD τ).loc main_arg3) :=
  calc W4 (F := Ideal) m ρ c (Proc.devRef .tc main_arg3)
    _ = W3 (F := Ideal) m ρ c (Proc.devRef .tc main_arg3) := W4_of_ne m ρ c main_arg3 (by decide)
    _ = W2 (F := Ideal) m ρ c (Proc.devRef .tc main_arg3) := StableHlo.after_of_forall_not_mem (b := Proc.devRef .tc main_arg3) _ _ (List.forall_iff_forall_mem.mp (by
          simp only [hostOps0_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 (F := Ideal) m ρ c (Proc.devRef .tc main_arg3) := StableHlo.after_of_forall_not_mem (b := Proc.devRef .tc main_arg3) _ _ (List.forall_iff_forall_mem.mp (by
          simp only [hostOps0_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 (F := Ideal) m ρ c (Proc.devRef .tc main_arg3) := StableHlo.after_of_forall_not_mem (b := Proc.devRef .tc main_arg3) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg3) := rfl

/-- The second weights at the second region's entry are the argument. -/
theorem W5_arg4 : W5 (F := Ideal) m ρ c (Proc.devRef .tc main_arg4) = m ((c : Thread nD τ).loc main_arg4) :=
  calc W5 (F := Ideal) m ρ c (Proc.devRef .tc main_arg4)
    _ = W4 (F := Ideal) m ρ c (Proc.devRef .tc main_arg4) := StableHlo.after_of_forall_not_mem (b := Proc.devRef .tc main_arg4) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 (F := Ideal) m ρ c (Proc.devRef .tc main_arg4) := W4_of_ne m ρ c main_arg4 (by decide)
    _ = W2 (F := Ideal) m ρ c (Proc.devRef .tc main_arg4) := StableHlo.after_of_forall_not_mem (b := Proc.devRef .tc main_arg4) _ _ (List.forall_iff_forall_mem.mp (by
          simp only [hostOps0_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 (F := Ideal) m ρ c (Proc.devRef .tc main_arg4) := StableHlo.after_of_forall_not_mem (b := Proc.devRef .tc main_arg4) _ _ (List.forall_iff_forall_mem.mp (by
          simp only [hostOps0_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 (F := Ideal) m ρ c (Proc.devRef .tc main_arg4) := StableHlo.after_of_forall_not_mem (b := Proc.devRef .tc main_arg4) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg4) := rfl

/-- The second bias after the second region is the argument. -/
theorem W6_arg5 : W6 (F := Ideal) m ρ c (Proc.devRef .tc main_arg5) = m ((c : Thread nD τ).loc main_arg5) :=
  calc W6 (F := Ideal) m ρ c (Proc.devRef .tc main_arg5)
    _ = W5 (F := Ideal) m ρ c (Proc.devRef .tc main_arg5) := W6_of_ne m ρ c main_arg5 (by decide)
    _ = W4 (F := Ideal) m ρ c (Proc.devRef .tc main_arg5) := StableHlo.after_of_forall_not_mem (b := Proc.devRef .tc main_arg5) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 (F := Ideal) m ρ c (Proc.devRef .tc main_arg5) := W4_of_ne m ρ c main_arg5 (by decide)
    _ = W2 (F := Ideal) m ρ c (Proc.devRef .tc main_arg5) := StableHlo.after_of_forall_not_mem (b := Proc.devRef .tc main_arg5) _ _ (List.forall_iff_forall_mem.mp (by
          simp only [hostOps0_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 (F := Ideal) m ρ c (Proc.devRef .tc main_arg5) := StableHlo.after_of_forall_not_mem (b := Proc.devRef .tc main_arg5) _ _ (List.forall_iff_forall_mem.mp (by
          simp only [hostOps0_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 (F := Ideal) m ρ c (Proc.devRef .tc main_arg5) := StableHlo.after_of_forall_not_mem (b := Proc.devRef .tc main_arg5) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg5) := rfl

/-- The source list is not touched by the two short stretches before the first region. -/
theorem W3_v5_1 : W3 (F := Ideal) m ρ c (Proc.devRef .tc main_v5) = W1 (F := Ideal) m ρ c (Proc.devRef .tc main_v5) :=
  calc W3 (F := Ideal) m ρ c (Proc.devRef .tc main_v5)
    _ = W2 (F := Ideal) m ρ c (Proc.devRef .tc main_v5) := StableHlo.after_of_forall_not_mem (b := Proc.devRef .tc main_v5) _ _ (List.forall_iff_forall_mem.mp (by
          simp only [hostOps0_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 (F := Ideal) m ρ c (Proc.devRef .tc main_v5) := StableHlo.after_of_forall_not_mem (b := Proc.devRef .tc main_v5) _ _ (List.forall_iff_forall_mem.mp (by
          simp only [hostOps0_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

/-- The target list is not touched by the two short stretches before the first region. -/
theorem W3_v6_1 : W3 (F := Ideal) m ρ c (Proc.devRef .tc main_v6) = W1 (F := Ideal) m ρ c (Proc.devRef .tc main_v6) :=
  calc W3 (F := Ideal) m ρ c (Proc.devRef .tc main_v6)
    _ = W2 (F := Ideal) m ρ c (Proc.devRef .tc main_v6) := StableHlo.after_of_forall_not_mem (b := Proc.devRef .tc main_v6) _ _ (List.forall_iff_forall_mem.mp (by
          simp only [hostOps0_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 (F := Ideal) m ρ c (Proc.devRef .tc main_v6) := StableHlo.after_of_forall_not_mem (b := Proc.devRef .tc main_v6) _ _ (List.forall_iff_forall_mem.mp (by
          simp only [hostOps0_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

end Cert.KernelIdeal.HostV

end
-- ==== Proof.KHost.lean ====
/-
  The fused program's host side, named. Between its three regions the program computes, from the edge array alone, the
  source and target lists (the given edges followed by one self loop per node), the per-node factor (the inverse square
  root of the in-degree where it is positive, else zero), and, twice, the aggregation of a feature matrix: rows gathered
  by (wrapped) source index and added up per target index from zero. Here each buffer a host stretch writes is stated
  as one of those functions of the buffers it reads.
-/
import proofs.«134857_j43654047596701_2_alg».proof.Proof.KTransport

set_option maxRecDepth 16384

noncomputable section

namespace Cert.KernelIdeal.HostV

open Cert.KernelIdeal Cert.KernelIdeal.Gen
open Idealize.ShloMosaic Idealize.ShloMosaic.TcCoe Idealize.ShloMosaic.Tactic Idealize.SL.Sem

/-! ## The functions -/

/-- The source list of the edge array: its row 0, then the node numbers `0 … 49999` (the self loops). -/
def srcOf (x1 : S2x800000.Idx → BitVec 32) : S850000.Idx → BitVec 32 :=
  concatenate S850000 0
    [⟨S800000, shapeCast S800000 (extractStridedSlice S1x800000 ![0, 0] x1 slices_S2x800000_S1x800000_0_0) shapeCasts_S1x800000_S800000⟩,
     ⟨S50000, iotaInDim S50000 32 0⟩] concatenates_S800000_S50000_S850000_d0

/-- The target list: the edge array's row 1, then the node numbers. -/
def dstOf (x1 : S2x800000.Idx → BitVec 32) : S850000.Idx → BitVec 32 :=
  concatenate S850000 0
    [⟨S800000, shapeCast S800000 (extractStridedSlice S1x800000 ![1, 0] x1 slices_S2x800000_S1x800000_1_0) shapeCasts_S1x800000_S800000⟩,
     ⟨S50000, iotaInDim S50000 32 0⟩] concatenates_S800000_S50000_S850000_d0

/-- An index list as the one-column array a scatter takes. -/
def rawCol (v : S850000.Idx → BitVec 32) : S850000x1.Idx → BitVec 32 :=
  broadcastInDim S850000x1 ![0] bcast_S850000_S850000x1_0 v

/-- An index list with negative entries wrapped by the table's height, as the one-column array a gather takes. -/
def wrapCol (v : S850000.Idx → BitVec 32) : S850000x1.Idx → BitVec 32 :=
  broadcastInDim S850000x1 ![0] bcast_S850000_S850000x1_0
    (select (cmpi .slt v (broadcastInDim S850000 ![] bcast_S_S850000 (constantI S_ 32 0#32)))
      (addi v (broadcastInDim S850000 ![] bcast_S_S850000 (constantI S_ 32 50000#32))) v)

/-- The in-degree of every node: ones added up per target index, from zero. -/
def degD (d : S850000.Idx → BitVec 32) : S50000.Idx → EReal :=
  Host.scatterAdd (F := Ideal) scatter_S50000_S850000x1_S850000_n_0_0_1
    (broadcastInDim S50000 ![] bcast_S_S50000 (constant (F := Ideal) S_ .f32 0x00000000#32))
    (rawCol d)
    (broadcastInDim S850000 ![] bcast_S_S850000 (constant (F := Ideal) S_ .f32 0x3F800000#32))

/-- The per-node factor: `1 / √(max deg ε)` where the degree is positive, else zero. -/
def disD (d : S850000.Idx → BitVec 32) : S50000.Idx → EReal :=
  select (cmpf (F := Ideal) .ogt (degD d) (broadcastInDim S50000 ![] bcast_S_S50000 (constant (F := Ideal) S_ .f32 0x00000000#32)))
    (Host.rsqrt (F := Ideal) (maximumf (F := Ideal) (degD d) (broadcastInDim S50000 ![] bcast_S_S50000 (constant (F := Ideal) S_ .f32 0x2B8CBCCC#32))))
    (broadcastInDim S50000 ![] bcast_S_S50000 (id (constant (F := Ideal) S_ .f32 0x00000000#32)))

/-- The aggregation of a feature matrix: its rows gathered by wrapped source index, added up per target index from zero. -/
def aggSD (s d : S850000.Idx → BitVec 32) (Y : S50000x128.Idx → EReal) : S50000x128.Idx → EReal :=
  Host.scatterAdd (F := Ideal) scatter_S50000x128_S850000x1_S850000x128_1_0_0_1
    (broadcastInDim S50000x128 ![] bcast_S_S50000x128 (constant (F := Ideal) S_ .f32 0x00000000#32))
    (rawCol d)
    (Host.gather gather_S50000x128_S850000x1_S850000x128_1_0_n_n_0_1_1128 Y (wrapCol s))

/-! ## Each stretch of host operations, from any contents `V` of the buffers it reads -/

section Stretch
variable (V : Valuation τ sig (Elt Ideal))

/-- The first stretch writes the source list. -/
theorem stretch0_v5 : (StableHlo.after hostOps0 V (Proc.devRef .tc main_v5) : S850000.Idx → BitVec 32) = srcOf (V (Proc.devRef .tc main_arg1)) := by
  after_results
  rfl

/-- The first stretch writes the target list. -/
theorem stretch0_v6 : (StableHlo.after hostOps0 V (Proc.devRef .tc main_v6) : S850000.Idx → BitVec 32) = dstOf (V (Proc.devRef .tc main_arg1)) := by
  after_results
  rfl

/-- The first stretch writes the comparison of the degree with zero, -/
theorem stretch0_v12 : (StableHlo.after hostOps0 V (Proc.devRef .tc main_v12) : S50000.Idx → BitVec 1)
    = cmpf (F := Ideal) .ogt (degD (dstOf (V (Proc.devRef .tc main_arg1)))) (broadcastInDim S50000 ![] bcast_S_S50000 (constant (F := Ideal) S_ .f32 0x00000000#32)) := by
  after_results
  rfl

/-- the inverse square root of the degree kept above the small constant, -/
theorem stretch0_v15 : (StableHlo.after hostOps0 V (Proc.devRef .tc main_v15) : S50000.Idx → EReal)
    = Host.rsqrt (F := Ideal) (maximumf (F := Ideal) (degD (dstOf (V (Proc.devRef .tc main_arg1)))) (broadcastInDim S50000 ![] bcast_S_S50000 (constant (F := Ideal) S_ .f32 0x2B8CBCCC#32))) := by
  after_results
  rfl

/-- and the zero the factor falls back to. -/
theorem stretch0_cst3 : (StableHlo.after hostOps0 V (Proc.devRef .tc main_cst_3) : S_.Idx → EReal) = constant (F := Ideal) S_ .f32 0x00000000#32 := by
  after_results

/-- The second stretch selects between them. -/
theorem stretch0_1_v16 : (StableHlo.after hostOps0_1 V (Proc.devRef .tc main_v16) : S50000.Idx → EReal)
    = select (V (Proc.devRef .tc main_v12) : S50000.Idx → BitVec 1) (V (Proc.devRef .tc main_v15) : S50000.Idx → EReal)
        (broadcastInDim S50000 ![] bcast_S_S50000 (id (V (Proc.devRef .tc main_cst_3) : S_.Idx → EReal))) := by
  after_results
  rfl

/-- The third stretch reshapes the factor to one column. -/
theorem stretch0_2_v17 : (StableHlo.after hostOps0_2 V (Proc.devRef .tc main_v17) : S50000x1.Idx → EReal)
    = shapeCast S50000x1 (V (Proc.devRef .tc main_v16) : S50000.Idx → EReal) shapeCasts_S50000_S50000x1 := by
  after_results
  rfl

/-- The stretch between the first two regions aggregates the first region's output -/
theorem stretch1_v28 : (StableHlo.after hostOps1 V (Proc.devRef .tc main_v28) : S50000x128.Idx → EReal)
    = aggSD (V (Proc.devRef .tc main_v5)) (V (Proc.devRef .tc main_v6)) (V (Proc.devRef .tc main_v18)) := by
  after_results
  rfl

/-- and reshapes the first bias to one row. -/
theorem stretch1_v29 : (StableHlo.after hostOps1 V (Proc.devRef .tc main_v29) : S1x128.Idx → EReal)
    = shapeCast S1x128 (V (Proc.devRef .tc main_arg3) : S128.Idx → EReal) shapeCasts_S128_S1x128 := by
  after_results
  rfl

/-- The stretch between the last two regions aggregates the second region's output -/
theorem stretch2_v40 : (StableHlo.after hostOps2 V (Proc.devRef .tc main_v40) : S50000x128.Idx → EReal)
    = aggSD (V (Proc.devRef .tc main_v5)) (V (Proc.devRef .tc main_v6)) (V (Proc.devRef .tc main_v30)) := by
  after_results
  rfl

/-- and reshapes the second bias to one row. -/
theorem stretch2_v41 : (StableHlo.after hostOps2 V (Proc.devRef .tc main_v41) : S1x128.Idx → EReal)
    = shapeCast S1x128 (V (Proc.devRef .tc main_arg5) : S128.Idx → EReal) shapeCasts_S128_S1x128 := by
  after_results
  rfl

end Stretch

end Cert.KernelIdeal.HostV

end
-- ==== Proof.KBound.lean ====
/-
  The fused program's buffers at its region boundaries, as functions of the edge array and of the regions' outputs: the
  two edge lists and the factor column before the first region, the aggregated first output and the first bias row
  before the second, the aggregated second output and the second bias row before the last.
-/
import proofs.«134857_j43654047596701_2_alg».proof.Proof.KHost

set_option maxRecDepth 16384

noncomputable section

namespace Cert.KernelIdeal.HostV

open Cert.KernelIdeal Cert.KernelIdeal.Gen
open Idealize.ShloMosaic Idealize.ShloMosaic.TcCoe Idealize.ShloMosaic.Tactic Idealize.SL.Sem

variable (m : (ℓ : Loc nD τ sig) → Buf (Elt Ideal) ℓ) (ρ : Dev nD → PrngReg) (c : Dev nD)

/-- The source list before the first region. -/
theorem W3_v5 : (W3 (F := Ideal) m ρ c (Proc.devRef .tc main_v5) : S850000.Idx → BitVec 32) = srcOf (m ((c : Thread nD τ).loc main_arg1) : S2x800000.Idx → BitVec 32) :=
  (W3_v5_1 m ρ c).trans (stretch0_v5 (W0 m ρ c))

/-- The target list before the first region. -/
theorem W3_v6 : (W3 (F := Ideal) m ρ c (Proc.devRef .tc main_v6) : S850000.Idx → BitVec 32) = dstOf (m ((c : Thread nD τ).loc main_arg1) : S2x800000.Idx → BitVec 32) :=
  (W3_v6_1 m ρ c).trans (stretch0_v6 (W0 m ρ c))

/-- The factor before its reshape. -/
theorem W2_v16 : (W2 (F := Ideal) m ρ c (Proc.devRef .tc main_v16) : S50000.Idx → EReal) = disD (dstOf (m ((c : Thread nD τ).loc main_arg1) : S2x800000.Idx → BitVec 32)) := by
  have e12 : (W1 (F := Ideal) m ρ c (Proc.devRef .tc main_v12) : S50000.Idx → BitVec 1) = _ := stretch0_v12 (W0 m ρ c)
  have e15 : (W1 (F := Ideal) m ρ c (Proc.devRef .tc main_v15) : S50000.Idx → EReal) = _ := stretch0_v15 (W0 m ρ c)
  have e3 : (W1 (F := Ideal) m ρ c (Proc.devRef .tc main_cst_3) : S_.Idx → EReal) = _ := stretch0_cst3 (W0 m ρ c)
  refine (stretch0_1_v16 (W1 m ρ c)).trans ?_
  rw [e12, e15, e3]
  rfl

/-- The factor, as the one-column array the regions read, before the first region. -/
theorem W3_v17 : (W3 (F := Ideal) m ρ c (Proc.devRef .tc main_v17) : S50000x1.Idx → EReal)
    = shapeCast S50000x1 (disD (dstOf (m ((c : Thread nD τ).loc main_arg1) : S2x800000.Idx → BitVec 32))) shapeCasts_S50000_S50000x1 := by
  refine (stretch0_2_v17 (W2 m ρ c)).trans ?_
  rw [W2_v16 m ρ c]

/-- The second region's first input: the first region's output aggregated. -/
theorem W5_v28 : (W5 (F := Ideal) m ρ c (Proc.devRef .tc main_v28) : S50000x128.Idx → EReal)
    = aggSD (srcOf (m ((c : Thread nD τ).loc main_arg1) : S2x800000.Idx → BitVec 32)) (dstOf (m ((c : Thread nD τ).loc main_arg1) : S2x800000.Idx → BitVec 32)) (W4 (F := Ideal) m ρ c (Proc.devRef .tc main_v18)) := by
  refine (stretch1_v28 (W4 m ρ c)).trans ?_
  rw [W4_v5 m ρ c, W4_v6 m ρ c, W3_v5 m ρ c, W3_v6 m ρ c]

/-- The first bias as the one-row array the second region reads. -/
theorem W5_v29 : (W5 (F := Ideal) m ρ c (Proc.devRef .tc main_v29) : S1x128.Idx → EReal)
    = shapeCast S1x128 (m ((c : Thread nD τ).loc main_arg3) : S128.Idx → EReal) shapeCasts_S128_S1x128 := by
  refine (stretch1_v29 (W4 m ρ c)).trans ?_
  rw [W4_arg3 m ρ c]

/-- The last region's first input: the second region's output aggregated. -/
theorem W7_v40 : (W7 (F := Ideal) m ρ c (Proc.devRef .tc main_v40) : S50000x128.Idx → EReal)
    = aggSD (srcOf (m ((c : Thread nD τ).loc main_arg1) : S2x800000.Idx → BitVec 32)) (dstOf (m ((c : Thread nD τ).loc main_arg1) : S2x800000.Idx → BitVec 32)) (W6 (F := Ideal) m ρ c (Proc.devRef .tc main_v30)) := by
  refine (stretch2_v40 (W6 m ρ c)).trans ?_
  rw [W6_v5 m ρ c, W6_v6 m ρ c, W3_v5 m ρ c, W3_v6 m ρ c]

/-- The second bias as the one-row array the last region reads. -/
theorem W7_v41 : (W7 (F := Ideal) m ρ c (Proc.devRef .tc main_v41) : S1x128.Idx → EReal)
    = shapeCast S1x128 (m ((c : Thread nD τ).loc main_arg5) : S128.Idx → EReal) shapeCasts_S128_S1x128 := by
  refine (stretch2_v41 (W6 m ρ c)).trans ?_
  rw [W6_arg5 m ρ c]

end Cert.KernelIdeal.HostV

end
-- ==== Proof.LibScatterRows.lean ====
/-
  The host's accumulating float scatter (`.at[idx].add`, a segment sum) read at one element, at the ideal instance:
  rows of a matrix scattered by row number, and a vector scattered by element number.

  The dimension numbers are the ones such a scatter is written with: the scatter indices are an `[N, 1]` array whose
  second axis holds the one-component index vector, that component names the operand's axis 0, which is an inserted
  window axis; the update's remaining axis (the columns, for rows) is the window axis. Update element `(p, c)` then
  lands at operand element `(idx[p, 0], c)` (the index read signed, NOT clamped), or nowhere when `idx[p, 0]` is
  outside `[0, R)`; so element `(r, k)` of the result collects exactly the update elements `(p, k)` with
  `idx[p, 0] = r`.
-/
import Idealize.ShloMosaic.PureOps.Ideal
import Idealize.ShloMosaic.Lib.ValueIdx

noncomputable section

namespace Cert.LibScatterRows

open Idealize.ShloMosaic Idealize.ShloMosaic.ValueIdx
open scoped BigOperators

section Rows
variable {R N K : Nat}

/-- The dimension numbers of a scatter of rows by row number. -/
abbrev rowsDims (wf : ScatterDims.WF (⟨2, ![R, K]⟩ : Shape) (⟨2, ![N, 1]⟩ : Shape) (⟨2, ![N, K]⟩ : Shape) [1] [0] [0] 1) :
    ScatterDims (⟨2, ![R, K]⟩ : Shape) (⟨2, ![N, 1]⟩ : Shape) (⟨2, ![N, K]⟩ : Shape) where
  updateWindowDims := [1]
  insertedWindowDims := [0]
  scatterDimsToOperandDims := [0]
  indexVectorDim := 1
  wf := wf

set_option maxHeartbeats 400000 in
/-- The start of update element `(p, c)`'s window on the operand's row axis is the `p`-th scatter index, read signed. -/
theorem rows_start_zero (wf) {w : Nat} (idx : IVec (⟨2, ![N, 1]⟩ : Shape) w) (p : Fin N) (c : Fin K) :
    (rowsDims (R := R) wf).start (ix2 p c) idx 0 = (idx (ix2 p (0 : Fin 1))).toInt := by
  unfold ScatterDims.start
  rw [dif_pos (show (0 : Fin 2) ∈ (rowsDims (R := R) (N := N) (K := K) wf).scatterDimsToOperandDims from List.mem_singleton.mpr rfl)]
  congr 2
  funext b
  refine Fin.ext ?_
  match b with
  | ⟨0, _⟩ => rfl
  | ⟨1, _⟩ => rfl

set_option maxHeartbeats 400000 in
/-- The scatter indices do not name the operand's column axis: the window starts at `0` on it. -/
theorem rows_start_one (wf) {w : Nat} (idx : IVec (⟨2, ![N, 1]⟩ : Shape) w) (j : (⟨2, ![N, K]⟩ : Shape).Idx) :
    (rowsDims (R := R) wf).start j idx 1 = 0 := by
  unfold ScatterDims.start
  rw [dif_neg (show (1 : Fin 2) ∉ [(0 : Fin 2)] from by decide)]

set_option maxHeartbeats 400000 in
/-- The operand's row axis is an inserted window axis: the window coordinate on it is `0`. -/
theorem rows_window_zero (wf) (j : (⟨2, ![N, K]⟩ : Shape).Idx) :
    (rowsDims (R := R) wf).window j 0 = 0 := by
  unfold ScatterDims.window
  exact dif_neg (show (0 : Fin 2) ∉ (List.finRange 2).filter (fun a => a ∉ [(0 : Fin 2)]) from by decide)

set_option maxHeartbeats 400000 in
/-- The window coordinate on the operand's column axis is the update element's column. -/
theorem rows_window_one (wf) (j : (⟨2, ![N, K]⟩ : Shape).Idx) :
    (rowsDims (R := R) wf).window j 1 = (j 1).val := by
  unfold ScatterDims.window
  exact (dif_pos (show (1 : Fin 2) ∈ (List.finRange 2).filter (fun a => a ∉ [(0 : Fin 2)]) from by decide)).trans rfl

set_option maxHeartbeats 400000 in
/-- The landing place of update element `(p, c)` is operand element `(r, k)` exactly when the `p`-th scatter index,
    read signed, is `r` and the column is the same (`c = k`); an index outside `[0, R)` lands nowhere. -/
theorem rows_resultIdx?_eq_some_iff
    (wf : ScatterDims.WF (⟨2, ![R, K]⟩ : Shape) (⟨2, ![N, 1]⟩ : Shape) (⟨2, ![N, K]⟩ : Shape) [1] [0] [0] 1)
    {w : Nat} (idx : IVec (⟨2, ![N, 1]⟩ : Shape) w) (p : Fin N) (c : Fin K) (r : Fin R) (k : Fin K) :
    (rowsDims (R := R) wf).resultIdx? (ix2 p c) idx = some (ix2 r k)
      ↔ (idx (ix2 p (0 : Fin 1))).toInt = (r.val : Int) ∧ c = k := by
  have h0 : (rowsDims (R := R) wf).start (ix2 p c) idx 0 + ((rowsDims (R := R) wf).window (ix2 p c) 0 : Int)
      = (idx (ix2 p (0 : Fin 1))).toInt := by
    rw [rows_start_zero, rows_window_zero]; exact Int.add_zero _
  have h1 : (rowsDims (R := R) wf).start (ix2 p c) idx 1 + ((rowsDims (R := R) wf).window (ix2 p c) 1 : Int)
      = (c.val : Int) := by
    rw [rows_start_one, rows_window_one]; exact Int.zero_add _
  unfold ScatterDims.resultIdx?
  split
  · rename_i h
    rw [Option.some.injEq]
    constructor
    · intro e
      have e0 : ((rowsDims (R := R) wf).start (ix2 p c) idx 0
          + ((rowsDims (R := R) wf).window (ix2 p c) 0 : Int)).toNat = r.val :=
        congrArg (fun f : (⟨2, ![R, K]⟩ : Shape).Idx => (f 0).val) e
      have e1 : ((rowsDims (R := R) wf).start (ix2 p c) idx 1
          + ((rowsDims (R := R) wf).window (ix2 p c) 1 : Int)).toNat = k.val :=
        congrArg (fun f : (⟨2, ![R, K]⟩ : Shape).Idx => (f 1).val) e
      have g0 := (h 0).1
      rw [h0] at e0 g0
      rw [h1] at e1
      exact ⟨by omega, Fin.ext (by omega)⟩
    · rintro ⟨ht, hc⟩
      funext a
      refine Fin.ext ?_
      match a with
      | ⟨0, _⟩ =>
        show ((rowsDims (R := R) wf).start (ix2 p c) idx 0
          + ((rowsDims (R := R) wf).window (ix2 p c) 0 : Int)).toNat = r.val
        rw [h0, ht]; exact Int.toNat_natCast _
      | ⟨1, _⟩ =>
        show ((rowsDims (R := R) wf).start (ix2 p c) idx 1
          + ((rowsDims (R := R) wf).window (ix2 p c) 1 : Int)).toNat = k.val
        rw [h1, hc]; exact Int.toNat_natCast _
  · rename_i h
    constructor
    · intro e; cases e
    · rintro ⟨ht, hc⟩
      exfalso; apply h
      intro a
      match a with
      | ⟨0, _⟩ =>
        show 0 ≤ (rowsDims (R := R) wf).start (ix2 p c) idx 0 + ((rowsDims (R := R) wf).window (ix2 p c) 0 : Int)
          ∧ (rowsDims (R := R) wf).start (ix2 p c) idx 0 + ((rowsDims (R := R) wf).window (ix2 p c) 0 : Int) < (R : Int)
        rw [h0, ht]; have := r.isLt; omega
      | ⟨1, _⟩ =>
        show 0 ≤ (rowsDims (R := R) wf).start (ix2 p c) idx 1 + ((rowsDims (R := R) wf).window (ix2 p c) 1 : Int)
          ∧ (rowsDims (R := R) wf).start (ix2 p c) idx 1 + ((rowsDims (R := R) wf).window (ix2 p c) 1 : Int) < (K : Int)
        rw [h1]; have := c.isLt; omega

set_option maxHeartbeats 400000 in
/-- Rows scattered by row number, read at one element, for the literal dimension numbers: element `(r, k)` of the
    result is the operand's element plus the sum, over the update rows `p` whose scatter index is `r`, of the update's
    element `(p, k)`. -/
theorem hostScatterAdd_rowsDims_apply
    (wf : ScatterDims.WF (⟨2, ![R, K]⟩ : Shape) (⟨2, ![N, 1]⟩ : Shape) (⟨2, ![N, K]⟩ : Shape) [1] [0] [0] 1)
    {w : Nat} (x : (⟨2, ![R, K]⟩ : Shape).Idx → EReal) (idx : IVec (⟨2, ![N, 1]⟩ : Shape) w)
    (upd : (⟨2, ![N, K]⟩ : Shape).Idx → EReal) (r : Fin R) (k : Fin K) :
    Ideal.hostScatterAdd (rowsDims wf) x idx upd (ix2 r k)
      = x (ix2 r k) + ∑ p ∈ Finset.univ.filter (fun p : Fin N => (idx (ix2 p (0 : Fin 1))).toInt = (r.val : Int)),
          upd (ix2 p k) := by
  unfold Ideal.hostScatterAdd
  congr 1
  symm
  refine Finset.sum_bij (fun p _ => ix2 p k) ?_ ?_ ?_ ?_
  · intro p hp
    rw [Finset.mem_filter] at hp ⊢
    exact ⟨Finset.mem_univ _, (rows_resultIdx?_eq_some_iff wf idx p k r k).mpr ⟨hp.2, rfl⟩⟩
  · intro p _ q _ e
    exact congrArg (fun f : (⟨2, ![N, K]⟩ : Shape).Idx => f 0) e
  · intro j hj
    rw [Finset.mem_filter] at hj
    obtain ⟨p, c, rfl⟩ : ∃ p c, j = ix2 p c := ⟨j 0, j 1, eq_ix2 j⟩
    have hpc := (rows_resultIdx?_eq_some_iff wf idx p c r k).mp hj.2
    refine ⟨p, Finset.mem_filter.mpr ⟨Finset.mem_univ _, hpc.1⟩, ?_⟩
    rw [hpc.2]
  · intro p _; rfl

/-- Rows of width `K` scattered by row number (`x.at[idx].add(upd)` over rows), read at one element: element
    `(r, k)` of the result is `x (r, k)` plus the sum of `upd (p, k)` over the update rows `p` whose scatter index, read
    signed, is `r`. Update rows whose index is outside `[0, R)` contribute nothing. -/
theorem hostScatterAdd_rows_apply
    (d : ScatterDims (⟨2, ![R, K]⟩ : Shape) (⟨2, ![N, 1]⟩ : Shape) (⟨2, ![N, K]⟩ : Shape))
    (huw : d.updateWindowDims = [1]) (hiw : d.insertedWindowDims = [0]) (hsd : d.scatterDimsToOperandDims = [0])
    (hiv : d.indexVectorDim = 1)
    {w : Nat} (x : (⟨2, ![R, K]⟩ : Shape).Idx → EReal) (idx : IVec (⟨2, ![N, 1]⟩ : Shape) w)
    (upd : (⟨2, ![N, K]⟩ : Shape).Idx → EReal) (r : Fin R) (k : Fin K) :
    Ideal.hostScatterAdd d x idx upd (ix2 r k)
      = x (ix2 r k) + ∑ p ∈ Finset.univ.filter (fun p : Fin N => (idx (ix2 p (0 : Fin 1))).toInt = (r.val : Int)),
          upd (ix2 p k) := by
  obtain ⟨uw, iw, sd, iv, wf⟩ := d
  dsimp only at huw hiw hsd hiv
  subst huw hiw hsd hiv
  exact hostScatterAdd_rowsDims_apply wf x idx upd r k

end Rows

section Vec
variable {R N : Nat}

/-- The dimension numbers of a scatter of a vector's elements by element number. -/
abbrev vecDims (wf : ScatterDims.WF (⟨1, ![R]⟩ : Shape) (⟨2, ![N, 1]⟩ : Shape) (⟨1, ![N]⟩ : Shape) [] [0] [0] 1) :
    ScatterDims (⟨1, ![R]⟩ : Shape) (⟨2, ![N, 1]⟩ : Shape) (⟨1, ![N]⟩ : Shape) where
  updateWindowDims := []
  insertedWindowDims := [0]
  scatterDimsToOperandDims := [0]
  indexVectorDim := 1
  wf := wf

set_option maxHeartbeats 400000 in
/-- The start of update element `p`'s window on the operand's one axis is the `p`-th scatter index, read signed. -/
theorem vec_start_zero (wf) {w : Nat} (idx : IVec (⟨2, ![N, 1]⟩ : Shape) w) (p : Fin N) :
    (vecDims (R := R) wf).start (ix1 p) idx 0 = (idx (ix2 p (0 : Fin 1))).toInt := by
  unfold ScatterDims.start
  rw [dif_pos (show (0 : Fin 1) ∈ (vecDims (R := R) (N := N) wf).scatterDimsToOperandDims from List.mem_singleton.mpr rfl)]
  congr 2
  funext b
  refine Fin.ext ?_
  match b with
  | ⟨0, _⟩ => rfl
  | ⟨1, _⟩ => rfl

set_option maxHeartbeats 400000 in
/-- The operand's one axis is an inserted window axis: the window coordinate on it is `0`. -/
theorem vec_window_zero (wf) (j : (⟨1, ![N]⟩ : Shape).Idx) :
    (vecDims (R := R) wf).window j 0 = 0 := by
  unfold ScatterDims.window
  exact dif_neg (show (0 : Fin 1) ∉ (List.finRange 1).filter (fun a => a ∉ [(0 : Fin 1)]) from by decide)

set_option maxHeartbeats 400000 in
/-- The landing place of update element `p` is operand element `r` exactly when the `p`-th scatter index, read
    signed, is `r`; an index outside `[0, R)` lands nowhere. -/
theorem vec_resultIdx?_eq_some_iff
    (wf : ScatterDims.WF (⟨1, ![R]⟩ : Shape) (⟨2, ![N, 1]⟩ : Shape) (⟨1, ![N]⟩ : Shape) [] [0] [0] 1)
    {w : Nat} (idx : IVec (⟨2, ![N, 1]⟩ : Shape) w) (p : Fin N) (r : Fin R) :
    (vecDims (R := R) wf).resultIdx? (ix1 p) idx = some (ix1 r)
      ↔ (idx (ix2 p (0 : Fin 1))).toInt = (r.val : Int) := by
  have h0 : (vecDims (R := R) wf).start (ix1 p) idx 0 + ((vecDims (R := R) wf).window (ix1 p) 0 : Int)
      = (idx (ix2 p (0 : Fin 1))).toInt := by
    rw [vec_start_zero, vec_window_zero]; exact Int.add_zero _
  unfold ScatterDims.resultIdx?
  split
  · rename_i h
    rw [Option.some.injEq]
    constructor
    · intro e
      have e0 : ((vecDims (R := R) wf).start (ix1 p) idx 0
          + ((vecDims (R := R) wf).window (ix1 p) 0 : Int)).toNat = r.val :=
        congrArg (fun f : (⟨1, ![R]⟩ : Shape).Idx => (f 0).val) e
      have g0 := (h 0).1
      rw [h0] at e0 g0
      omega
    · intro ht
      funext a
      refine Fin.ext ?_
      match a with
      | ⟨0, _⟩ =>
        show ((vecDims (R := R) wf).start (ix1 p) idx 0
          + ((vecDims (R := R) wf).window (ix1 p) 0 : Int)).toNat = r.val
        rw [h0, ht]; exact Int.toNat_natCast _
  · rename_i h
    constructor
    · intro e; cases e
    · intro ht
      exfalso; apply h
      intro a
      match a with
      | ⟨0, _⟩ =>
        show 0 ≤ (vecDims (R := R) wf).start (ix1 p) idx 0 + ((vecDims (R := R) wf).window (ix1 p) 0 : Int)
          ∧ (vecDims (R := R) wf).start (ix1 p) idx 0 + ((vecDims (R := R) wf).window (ix1 p) 0 : Int) < (R : Int)
        rw [h0, ht]; have := r.isLt; omega

set_option maxHeartbeats 400000 in
/-- A vector scattered by element number, read at one element, for the literal dimension numbers: element `r` of the
    result is the operand's element plus the sum of the update elements `p` whose scatter index is `r`. -/
theorem hostScatterAdd_vecDims_apply
    (wf : ScatterDims.WF (⟨1, ![R]⟩ : Shape) (⟨2, ![N, 1]⟩ : Shape) (⟨1, ![N]⟩ : Shape) [] [0] [0] 1)
    {w : Nat} (x : (⟨1, ![R]⟩ : Shape).Idx → EReal) (idx : IVec (⟨2, ![N, 1]⟩ : Shape) w)
    (upd : (⟨1, ![N]⟩ : Shape).Idx → EReal) (r : Fin R) :
    Ideal.hostScatterAdd (vecDims wf) x idx upd (ix1 r)
      = x (ix1 r) + ∑ p ∈ Finset.univ.filter (fun p : Fin N => (idx (ix2 p (0 : Fin 1))).toInt = (r.val : Int)),
          upd (ix1 p) := by
  unfold Ideal.hostScatterAdd
  congr 1
  symm
  refine Finset.sum_bij (fun p _ => ix1 p) ?_ ?_ ?_ ?_
  · intro p hp
    rw [Finset.mem_filter] at hp ⊢
    exact ⟨Finset.mem_univ _, (vec_resultIdx?_eq_some_iff wf idx p r).mpr hp.2⟩
  · intro p _ q _ e
    exact congrArg (fun f : (⟨1, ![N]⟩ : Shape).Idx => f 0) e
  · intro j hj
    rw [Finset.mem_filter] at hj
    obtain ⟨p, rfl⟩ : ∃ p, j = ix1 p := ⟨j 0, eq_ix1 j⟩
    exact ⟨p, Finset.mem_filter.mpr ⟨Finset.mem_univ _, (vec_resultIdx?_eq_some_iff wf idx p r).mp hj.2⟩, rfl⟩
  · intro p _; rfl

/-- A vector scattered by element number (`x.at[idx].add(upd)`, a segment sum), read at one element: element `r` of
    the result is `x r` plus the sum of `upd p` over the update elements `p` whose scatter index, read signed, is `r`.
    Update elements whose index is outside `[0, R)` contribute nothing. -/
theorem hostScatterAdd_vec_apply
    (d : ScatterDims (⟨1, ![R]⟩ : Shape) (⟨2, ![N, 1]⟩ : Shape) (⟨1, ![N]⟩ : Shape))
    (huw : d.updateWindowDims = []) (hiw : d.insertedWindowDims = [0]) (hsd : d.scatterDimsToOperandDims = [0])
    (hiv : d.indexVectorDim = 1)
    {w : Nat} (x : (⟨1, ![R]⟩ : Shape).Idx → EReal) (idx : IVec (⟨2, ![N, 1]⟩ : Shape) w)
    (upd : (⟨1, ![N]⟩ : Shape).Idx → EReal) (r : Fin R) :
    Ideal.hostScatterAdd d x idx upd (ix1 r)
      = x (ix1 r) + ∑ p ∈ Finset.univ.filter (fun p : Fin N => (idx (ix2 p (0 : Fin 1))).toInt = (r.val : Int)),
          upd (ix1 p) := by
  obtain ⟨uw, iw, sd, iv, wf⟩ := d
  dsimp only at huw hiw hsd hiv
  subst huw hiw hsd hiv
  exact hostScatterAdd_vecDims_apply wf x idx upd r

end Vec

end Cert.LibScatterRows

end
-- ==== Proof.LibGatherRows.lean ====
/-
  StableHLO's gather of whole rows by row number (`table[idx]` over rows), read at one element: rows of a matrix
  gathered by row number, and elements of a vector gathered by element number.

  The dimension numbers are the ones such a gather is written with: the start indices are an `[N, 1]` array whose
  second axis holds the one-component index vector; that component names the operand's axis 0, which is a collapsed
  axis of slice size 1; the operand's remaining axis (the columns, for rows) is taken whole and is the result's offset
  axis. Result element `(p, k)` is then operand element `(r, k)` where `r` is the start index `idx[p, 0]`, read signed and
  clamped into `[0, R − 1]` (a negative index reads row 0, one past the end reads the last row).
-/
import Idealize.ShloMosaic.PureOps.Ideal
import Idealize.ShloMosaic.Lib.ValueIdx

noncomputable section

namespace Cert.LibGatherRows

open Idealize.ShloMosaic Idealize.ShloMosaic.ValueIdx

section Rows
variable {α : Type} {R N K : Nat}

/-- The dimension numbers of a gather of rows of width `K` by row number. -/
abbrev rowsDims
    (wf : GatherDims.WF (⟨2, ![R, K]⟩ : Shape) (⟨2, ![N, 1]⟩ : Shape) (⟨2, ![N, K]⟩ : Shape) [1] [0] [] [0] [] 1 ![1, K]) :
    GatherDims (⟨2, ![R, K]⟩ : Shape) (⟨2, ![N, 1]⟩ : Shape) (⟨2, ![N, K]⟩ : Shape) where
  offsetDims := [1]
  collapsedSliceDims := [0]
  operandBatchingDims := []
  startIndicesBatchingDims := []
  startIndexMap := [0]
  indexVectorDim := 1
  sliceSizes := ![1, K]
  wf := wf

set_option maxHeartbeats 400000 in
/-- The start of result element `(p, k)`'s slice on the operand's row axis is the `p`-th start index, read signed and
    clamped into `[0, R − 1]`. -/
theorem rows_start_zero (wf) {w : Nat} (idx : IVec (⟨2, ![N, 1]⟩ : Shape) w) (p : Fin N) (k : Fin K) :
    (rowsDims (R := R) wf).start (ix2 p k) idx 0 = min (idx (ix2 p (0 : Fin 1))).toInt.toNat (R - 1) := by
  unfold GatherDims.start
  rw [dif_pos (show (0 : Fin 2) ∈ (rowsDims (R := R) (N := N) (K := K) wf).startIndexMap from List.mem_singleton.mpr rfl)]
  have hsi : (rowsDims (R := R) wf).siIdx (ix2 p k) ⟨List.idxOf (0 : Fin 2) (rowsDims (R := R) (N := N) (K := K) wf).startIndexMap,
      List.idxOf_lt_length_iff.2 (List.mem_singleton.mpr rfl)⟩ = ix2 p (0 : Fin 1) := by
    funext b; refine Fin.ext ?_
    match b with
    | ⟨0, _⟩ => rfl
    | ⟨1, _⟩ => rfl
  rw [hsi]
  rfl

set_option maxHeartbeats 400000 in
/-- The start index map does not name the operand's column axis: the slice starts at `0` on it. -/
theorem rows_start_one (wf) {w : Nat} (idx : IVec (⟨2, ![N, 1]⟩ : Shape) w) (j : (⟨2, ![N, K]⟩ : Shape).Idx) :
    (rowsDims (R := R) wf).start j idx 1 = 0 := by
  unfold GatherDims.start
  rw [dif_neg (show (1 : Fin 2) ∉ [(0 : Fin 2)] from by decide)]

set_option maxHeartbeats 400000 in
/-- The operand's row axis is collapsed: the offset coordinate on it is `0`. -/
theorem rows_offCoord_zero (wf) (j : (⟨2, ![N, K]⟩ : Shape).Idx) :
    (rowsDims (R := R) wf).offCoord j 0 = 0 :=
  GatherDims.offCoord_eq_zero _ _ _ (fun h => ((GatherDims.mem_sKept _ _).mp h).1 (List.mem_singleton.mpr rfl))

set_option maxHeartbeats 400000 in
/-- The offset coordinate on the operand's column axis is the result element's column. -/
theorem rows_offCoord_one (wf) (j : (⟨2, ![N, K]⟩ : Shape).Idx) :
    (rowsDims (R := R) wf).offCoord j 1 = (j 1).val := by
  unfold GatherDims.offCoord
  exact (dif_pos (show (1 : Fin 2) ∈ (List.finRange 2).filter (fun a => a ∉ [(0 : Fin 2)] ++ []) from by decide)).trans rfl

set_option maxHeartbeats 400000 in
/-- Rows gathered by row number, read at one element, for the literal dimension numbers: element `(p, k)` of the result
    is the operand's element `(r, k)`, `r` the `p`-th start index read signed and clamped into `[0, R − 1]`. -/
theorem hostGather_rowsDims_apply (hR : 0 < R)
    (wf : GatherDims.WF (⟨2, ![R, K]⟩ : Shape) (⟨2, ![N, 1]⟩ : Shape) (⟨2, ![N, K]⟩ : Shape) [1] [0] [] [0] [] 1 ![1, K])
    {w : Nat} (x : (⟨2, ![R, K]⟩ : Shape).Idx → α) (idx : IVec (⟨2, ![N, 1]⟩ : Shape) w) (p : Fin N) (k : Fin K) :
    Host.gather (rowsDims wf) x idx (ix2 p k)
      = x (ix2 (⟨min (idx (ix2 p (0 : Fin 1))).toInt.toNat (R - 1), by omega⟩ : Fin R) k) := by
  unfold Host.gather
  congr 1
  funext a
  refine Fin.ext ?_
  match a with
  | ⟨0, _⟩ =>
    show (rowsDims (R := R) wf).start (ix2 p k) idx 0 + (rowsDims (R := R) wf).batchCoord (ix2 p k) 0
        + (rowsDims (R := R) wf).offCoord (ix2 p k) 0 = min (idx (ix2 p (0 : Fin 1))).toInt.toNat (R - 1)
    rw [GatherDims.batchCoord_eq_zero _ _ _ List.not_mem_nil, rows_offCoord_zero, rows_start_zero]
    rfl
  | ⟨1, _⟩ =>
    show (rowsDims (R := R) wf).start (ix2 p k) idx 1 + (rowsDims (R := R) wf).batchCoord (ix2 p k) 1
        + (rowsDims (R := R) wf).offCoord (ix2 p k) 1 = k.val
    rw [GatherDims.batchCoord_eq_zero _ _ _ List.not_mem_nil, rows_offCoord_one, rows_start_one]
    exact Nat.zero_add _

/-- Rows of width `K` gathered by row number (`x[idx]` over rows), read at one element: element `(p, k)` of the
    result is `x (r, k)` where `r` is the `p`-th start index, read signed and clamped into `[0, R − 1]`. -/
theorem hostGather_rows_apply {α : Type} {R N K w : Nat} (hR : 0 < R)
    (d : GatherDims (⟨2, ![R, K]⟩ : Shape) (⟨2, ![N, 1]⟩ : Shape) (⟨2, ![N, K]⟩ : Shape))
    (hod : d.offsetDims = [1]) (hcs : d.collapsedSliceDims = [0]) (hob : d.operandBatchingDims = [])
    (hsb : d.startIndicesBatchingDims = []) (hsm : d.startIndexMap = [0]) (hiv : d.indexVectorDim = 1)
    (hss : d.sliceSizes = ![1, K])
    (x : (⟨2, ![R, K]⟩ : Shape).Idx → α) (idx : IVec (⟨2, ![N, 1]⟩ : Shape) w) (p : Fin N) (k : Fin K) :
    Host.gather d x idx (ix2 p k)
      = x (ix2 (⟨min (idx (ix2 p (0 : Fin 1))).toInt.toNat (R - 1), by omega⟩ : Fin R) k) := by
  obtain ⟨od, cs, ob, sb, sm, iv, ss, wf⟩ := d
  dsimp only at hod hcs hob hsb hsm hiv hss
  subst hod hcs hob hsb hsm hiv hss
  exact hostGather_rowsDims_apply hR wf x idx p k

end Rows

section Vec
variable {α : Type} {R N : Nat}

/-- The dimension numbers of a gather of a vector's elements by element number. -/
abbrev vecDims
    (wf : GatherDims.WF (⟨1, ![R]⟩ : Shape) (⟨2, ![N, 1]⟩ : Shape) (⟨1, ![N]⟩ : Shape) [] [0] [] [0] [] 1 ![1]) :
    GatherDims (⟨1, ![R]⟩ : Shape) (⟨2, ![N, 1]⟩ : Shape) (⟨1, ![N]⟩ : Shape) where
  offsetDims := []
  collapsedSliceDims := [0]
  operandBatchingDims := []
  startIndicesBatchingDims := []
  startIndexMap := [0]
  indexVectorDim := 1
  sliceSizes := ![1]
  wf := wf

set_option maxHeartbeats 400000 in
/-- The start of result element `p`'s slice on the operand's one axis is the `p`-th start index, read signed and
    clamped into `[0, R − 1]`. -/
theorem vec_start_zero (wf) {w : Nat} (idx : IVec (⟨2, ![N, 1]⟩ : Shape) w) (p : Fin N) :
    (vecDims (R := R) wf).start (ix1 p) idx 0 = min (idx (ix2 p (0 : Fin 1))).toInt.toNat (R - 1) := by
  unfold GatherDims.start
  rw [dif_pos (show (0 : Fin 1) ∈ (vecDims (R := R) (N := N) wf).startIndexMap from List.mem_singleton.mpr rfl)]
  have hsi : (vecDims (R := R) wf).siIdx (ix1 p) ⟨List.idxOf (0 : Fin 1) (vecDims (R := R) (N := N) wf).startIndexMap,
      List.idxOf_lt_length_iff.2 (List.mem_singleton.mpr rfl)⟩ = ix2 p (0 : Fin 1) := by
    funext b; refine Fin.ext ?_
    match b with
    | ⟨0, _⟩ => rfl
    | ⟨1, _⟩ => rfl
  rw [hsi]
  rfl

set_option maxHeartbeats 400000 in
/-- A vector's elements gathered by element number, read at one element, for the literal dimension numbers: element
    `p` of the result is the operand's element `r`, `r` the `p`-th start index read signed and clamped into `[0, R − 1]`. -/
theorem hostGather_vecDims_apply (hR : 0 < R)
    (wf : GatherDims.WF (⟨1, ![R]⟩ : Shape) (⟨2, ![N, 1]⟩ : Shape) (⟨1, ![N]⟩ : Shape) [] [0] [] [0] [] 1 ![1])
    {w : Nat} (x : (⟨1, ![R]⟩ : Shape).Idx → α) (idx : IVec (⟨2, ![N, 1]⟩ : Shape) w) (p : Fin N) :
    Host.gather (vecDims wf) x idx (ix1 p)
      = x (ix1 (⟨min (idx (ix2 p (0 : Fin 1))).toInt.toNat (R - 1), by omega⟩ : Fin R)) := by
  unfold Host.gather
  congr 1
  funext a
  refine Fin.ext ?_
  match a with
  | ⟨0, _⟩ =>
    show (vecDims (R := R) wf).start (ix1 p) idx 0 + (vecDims (R := R) wf).batchCoord (ix1 p) 0
        + (vecDims (R := R) wf).offCoord (ix1 p) 0 = min (idx (ix2 p (0 : Fin 1))).toInt.toNat (R - 1)
    rw [GatherDims.batchCoord_eq_zero _ _ _ List.not_mem_nil,
      GatherDims.offCoord_eq_zero _ _ _ (fun h => ((GatherDims.mem_sKept _ _).mp h).1 (List.mem_singleton.mpr rfl)),
      vec_start_zero]
    rfl

/-- A vector's elements gathered by element number (`x[idx]` of a flat array), read at one element: element `p` of the
    result is `x r` where `r` is the `p`-th start index, read signed and clamped into `[0, R − 1]`. -/
theorem hostGather_vec_apply {α : Type} {R N w : Nat} (hR : 0 < R)
    (d : GatherDims (⟨1, ![R]⟩ : Shape) (⟨2, ![N, 1]⟩ : Shape) (⟨1, ![N]⟩ : Shape))
    (hod : d.offsetDims = []) (hcs : d.collapsedSliceDims = [0]) (hob : d.operandBatchingDims = [])
    (hsb : d.startIndicesBatchingDims = []) (hsm : d.startIndexMap = [0]) (hiv : d.indexVectorDim = 1)
    (hss : d.sliceSizes = ![1])
    (x : (⟨1, ![R]⟩ : Shape).Idx → α) (idx : IVec (⟨2, ![N, 1]⟩ : Shape) w) (p : Fin N) :
    Host.gather d x idx (ix1 p)
      = x (ix1 (⟨min (idx (ix2 p (0 : Fin 1))).toInt.toNat (R - 1), by omega⟩ : Fin R)) := by
  obtain ⟨od, cs, ob, sb, sm, iv, ss, wf⟩ := d
  dsimp only at hod hcs hob hsb hsm hiv hss
  subst hod hcs hob hsb hsm hiv hss
  exact hostGather_vecDims_apply hR wf x idx p

end Vec

end Cert.LibGatherRows

end
-- ==== Proof.GcnSpec.lean ====
/-
  A two-layer graph convolution with symmetric degree normalisation, written index by index over the extended reals,
  in the two arrangements that are compared.

  The graph is an edge list of 850000 entries (the given edges followed by one self loop per node) over 50000 nodes with
  128 features. Everything here is stated over abstract data: `dis r`, the normalising factor of node `r` (the inverse
  square root of its in-degree, or zero); `rs p` and `rd p`, the node rows that edge `p`'s source and target index
  select when a row is gathered (the index wrapped and clamped); and `T r`, the set of edges whose messages are added
  into node `r` by the scatter (the edges whose target index is `r` itself).

  One layer of the reference scales each gathered message by `dis (rs p) * dis (rd p)` before it is added up:
      out r k = (0 + ∑ p ∈ T r, (X·W) (rs p) k * (dis (rs p) * dis (rd p))) + b k.
  The other arrangement scales the rows of `X·W` by `dis` before they are gathered and the sums by `dis` after:
      out r k = (0 + ∑ p ∈ T r, ((X·W) (rs p) k * dis (rs p))) * dis r + b k.
  For `p ∈ T r` the target row is `rd p = r`, so the two agree as soon as the common factor `dis r` may be moved out
  of the sum: on the extended reals that is right distributivity over a finite sum, which holds for a factor in `[0, ⊤)`.
-/
import Idealize.ShloMosaic.PureOps.Ideal
import Idealize.ShloMosaic.Lib.ValueIdx

noncomputable section

namespace Cert.Gcn

open scoped BigOperators

/-- Node features: 50000 rows of 128. -/
abbrev Feat := Fin 50000 → Fin 128 → EReal
/-- A weight matrix, 128 by 128. -/
abbrev Wgt := Fin 128 → Fin 128 → EReal
/-- A bias row. -/
abbrev Bia := Fin 128 → EReal

/-- The matrix product `X·W` at `(r, k)`. -/
def mm (X : Feat) (W : Wgt) (r : Fin 50000) (k : Fin 128) : EReal := ∑ i : Fin 128, X r i * W i k

section
variable (dis : Fin 50000 → EReal) (rs rd : Fin 850000 → Fin 50000) (T : Fin 50000 → Finset (Fin 850000))

/-- One layer as the reference computes it: each message scaled by both ends' factors, then added up, then the bias. -/
def refLayer (X : Feat) (W : Wgt) (b : Bia) : Feat := fun r k =>
  (0 + ∑ p ∈ T r, mm X W (rs p) k * (dis (rs p) * dis (rd p))) + b k

/-- The reference: a layer, the positive part, a second layer. -/
def refOut (x : Feat) (w1 : Wgt) (b1 : Bia) (w2 : Wgt) (b2 : Bia) : Feat :=
  refLayer dis rs rd T (fun r k => max (refLayer dis rs rd T x w1 b1 r k) 0) w2 b2

/-- The rows of `X·W` scaled by their own node's factor (what the first two fused passes write). -/
def scaled (X : Feat) (W : Wgt) : Feat := fun r k => mm X W r k * dis r

/-- Messages gathered by source row and added up per target node, from zero. -/
def agg (Y : Feat) : Feat := fun r k => 0 + ∑ p ∈ T r, Y (rs p) k

/-- The hidden layer in the fused arrangement: the sums scaled by the target's factor, the bias, the positive part. -/
def hid (x : Feat) (w1 : Wgt) (b1 : Bia) : Feat := fun r k =>
  max (agg rs T (scaled dis x w1) r k * dis r + b1 k) 0

/-- The fused arrangement's result. -/
def kerOut (x : Feat) (w1 : Wgt) (b1 : Bia) (w2 : Wgt) (b2 : Bia) : Feat := fun r j =>
  agg rs T (scaled dis (hid dis rs T x w1 b1) w2) r j * dis r + b2 j

end

end Cert.Gcn

end
-- ==== Proof.KIndex.lean ====
/-
  The fused program's host functions read at one element. An aggregation (rows gathered by wrapped source index, added
  up per target index from zero) at `(r, k)` is the sum, over the edges whose target index is `r`, of the matrix's
  entry at the gathered row and column `k`; a vector reshaped to one column is read at `(r, 0)`, one reshaped to
  one row at `(0, k)`.
-/
import proofs.«134857_j43654047596701_2_alg».proof.Proof.KHost
import proofs.«134857_j43654047596701_2_alg».proof.Proof.LibScatterRows
import proofs.«134857_j43654047596701_2_alg».proof.Proof.LibGatherRows
import proofs.«134857_j43654047596701_2_alg».proof.Proof.GcnSpec
import Idealize.ShloMosaic.Lib.Pipeline.Value
import Idealize.ShloMosaic.Lib.ValueIdx
import Idealize.ShloMosaic.PureOps.Ideal.Laws

set_option maxRecDepth 16384

noncomputable section

namespace Cert.KernelIdeal.HostV

open Cert.KernelIdeal Cert.KernelIdeal.Gen Idealize.ShloMosaic Idealize.ShloMosaic.ValueIdx
open scoped BigOperators

/-- The table row a gather selects for edge `p`: its wrapped source index, read signed and clamped into the table. -/
def rowK (s : S850000.Idx → BitVec 32) : Fin 850000 → Fin 50000 := fun p =>
  ⟨min (wrapCol s (ix2 p (0 : Fin 1))).toInt.toNat (50000 - 1), by omega⟩

/-- The edges a scatter adds into node `r`: those whose raw target index, read signed, is `r`. -/
def tgtK (d : S850000.Idx → BitVec 32) : Fin 50000 → Finset (Fin 850000) := fun r =>
  Finset.univ.filter (fun p : Fin 850000 => (rawCol d (ix2 p (0 : Fin 1))).toInt = (r.val : Int))

/-- Node `n`'s factor. -/
def disK (d : S850000.Idx → BitVec 32) : Fin 50000 → EReal := fun n => disD d (ix1 n)

/-- Rows gathered by an index column and added up per target index, from an array that is zero, read at `(r, k)`:
    from zero, the gathered rows' entries of column `k` over the update rows whose target index is `r`. -/
theorem agg_read (Z Y : S50000x128.Idx → EReal) (I J : S850000x1.Idx → BitVec 32)
    (hz : ∀ r k, Z (ix2 r k) = 0) (r : Fin 50000) (k : Fin 128) :
    (Host.scatterAdd (F := Ideal) (φ := .f32) scatter_S50000x128_S850000x1_S850000x128_1_0_0_1 Z I
        (Host.gather gather_S50000x128_S850000x1_S850000x128_1_0_n_n_0_1_1128 Y J) : S50000x128.Idx → EReal) (ix2 r k)
      = 0 + ∑ p ∈ Finset.univ.filter (fun p : Fin 850000 => (I (ix2 p (0 : Fin 1))).toInt = (r.val : Int)),
          Y (ix2 (⟨min (J (ix2 p (0 : Fin 1))).toInt.toNat (50000 - 1), by omega⟩ : Fin 50000) k) := by
  unfold Host.scatterAdd
  rw [Ideal.hostScatterAdd_def, Cert.LibScatterRows.hostScatterAdd_rows_apply _ rfl rfl rfl rfl, hz]
  refine congrArg (fun t : EReal => 0 + t) (Finset.sum_congr rfl fun p _ => ?_)
  rw [Cert.LibGatherRows.hostGather_rows_apply (by decide) _ rfl rfl rfl rfl rfl rfl rfl]

/-- The array an aggregation starts from is zero. -/
theorem zeros_read (r : Fin 50000) (k : Fin 128) :
    (broadcastInDim S50000x128 ![] bcast_S_S50000x128 (constant (F := Ideal) S_ .f32 0x00000000#32)
      : S50000x128.Idx → EReal) (ix2 r k) = 0 := by
  rw [broadcastInDim_apply _ bcast_S_S50000x128 _ (ix2 r k) ix0 (fun a => a.elim0)]
  exact Ideal.ofBits_zero_f32

/-- The aggregation at `(r, k)`: from zero, the gathered rows' entries of column `k` over the edges into `r`. -/
theorem aggSD_apply (s d : S850000.Idx → BitVec 32) (Y : S50000x128.Idx → EReal) (r : Fin 50000) (k : Fin 128) :
    aggSD s d Y (ix2 r k) = Cert.Gcn.agg (rowK s) (tgtK d) (fun a b => Y (ix2 a b)) r k := by
  unfold aggSD Cert.Gcn.agg tgtK rowK
  exact agg_read _ Y (rawCol d) (wrapCol s) zeros_read r k

/-- A vector of 50000 reshaped to one column, at `(r, 0)`. -/
theorem col_apply (v : S50000.Idx → EReal) (r : Fin 50000) :
    shapeCast S50000x1 v shapeCasts_S50000_S50000x1 (ix2 r (0 : Fin 1)) = v (ix1 r) := by
  refine shapeCast_apply v _ (ix2 r (0 : Fin 1)) (ix1 r) ?_
  rw [Shape.rowMajor_val_one, Shape.rowMajor_val_two]
  show r.val = r.val * 1 + 0
  omega

/-- A vector of 128 reshaped to one row, at `(0, k)`. -/
theorem row_apply (b : S128.Idx → EReal) (k : Fin 128) :
    shapeCast S1x128 b shapeCasts_S128_S1x128 (ix2 (0 : Fin 1) k) = b (ix1 k) := by
  refine shapeCast_apply b _ (ix2 (0 : Fin 1) k) (ix1 k) ?_
  rw [Shape.rowMajor_val_one, Shape.rowMajor_val_two]
  show k.val = 0 * 128 + k.val
  omega

end Cert.KernelIdeal.HostV

end
-- ==== Proof.LibBroadcastColumn.lean ====
/-
  A column broadcast along its rows, read at an index: an `[a, 1]` array broadcast to `[a, b]` holds, at `(p, c)`, the
  column's entry of row `p` — the companion of the row form `[1, b] → [a, b]`, which holds the row's entry of column `c`.
  This is how a per-row quantity kept with a trailing unit axis (a row sum, a row norm, a row maximum) meets a matrix.
-/
import Idealize.ShloMosaic.Lib.Pipeline.Value
import Idealize.ShloMosaic.Lib.ValueIdx

namespace Cert.Lib

open Idealize.ShloMosaic Idealize.ShloMosaic.ValueIdx

/-- An `[a, 1]` array broadcast to `[a, b]` reads, at `(p, c)`, the operand's one column at row `p`. On axis 0 the
    operand's coordinate is the result's (or `0` when `a = 1`, where `p` is `0` anyway); on axis 1 it is `0`, the axis
    having extent one. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Lib
-- ==== Proof.KReg0.lean ====
/-
  Region 0 of the program: a matrix product with its rows scaled. With x the [50000,128] input, w the [128,128] weights
  and dis the [50000,1] column of per-row scales, the region's output array holds at row r, column j
      (∑ k, x r k * w k j) * dis r.
  The grid has 10 points; point t works on rows 5000·t … 5000·t + 4999 of x, dis and the output, and on the whole of w.
  The body's arithmetic is read at one entry of a block, each point's written block is the block of the closed formula,
  and the ten blocks tile the array.
-/
import proofs.«134857_j43654047596701_2_alg».proof.Proof.Gen.KernelIdeal.Frame
import proofs.«134857_j43654047596701_2_alg».proof.Proof.LibBroadcastColumn
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Reg0

open Cert.KernelIdeal Cert.KernelIdeal.Gen Idealize.ShloMosaic Idealize.ShloMosaic.ValueIdx
open Idealize.ShloMosaic.TcCoe Idealize.SL.Sem
open Idealize.ShloMosaic.Pipeline (Dat)

theorem hz : (![0, 0] : Fin 2 → Nat) = fun _ => 0 := funext fun a => by fin_cases a <;> rfl

/-- The product's left operand is read at the result's row … -/
theorem lhs_row (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
/-- … and the contracted coordinate, -/
theorem lhs_col (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
/-- the right operand at the contracted coordinate … -/
theorem rhs_row (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
/-- … and the result's column. -/
theorem rhs_col (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- The block's matrix product into a zero accumulator, read at an entry: the sum over the one shared axis, of extent 128. -/
theorem matmul_entry (a : FVec Ideal S5000x128 .bf16) (b : FVec Ideal S128x128 .bf16) (p : Fin 5000) (q : Fin 128) :
    matmul dot_S5000x128_S128x128_S5000x128_1_0_0_1_n_n none a b (constant S5000x128 .f32 0x00000000#32) (ix2 p q)
      = ∑ k : Fin 128, a (ix2 p k) * b (ix2 k q) := by
  show FloatOps.matmul dot_S5000x128_S128x128_S5000x128_1_0_0_1_n_n none a b (constant S5000x128 .f32 0x00000000#32) (ix2 p q) = _
  rw [Ideal.matmul_constant_zero_apply, ← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx (ix2 p q) ((contrEquiv1 dot_S5000x128_S128x128_S5000x128_1_0_0_1_n_n 128 rfl rfl).symm k) = ix2 p k := funext fun a => Fin.ext (by
    match a with
    | ⟨0, _⟩ => exact lhs_row _ _
    | ⟨1, _⟩ => exact (lhs_col _ _).trans hk)
  have er : dot_S5000x128_S128x128_S5000x128_1_0_0_1_n_n.rhsIdx (ix2 p q) ((contrEquiv1 dot_S5000x128_S128x128_S5000x128_1_0_0_1_n_n 128 rfl rfl).symm k) = ix2 k q := funext fun a => Fin.ext (by
    match a with
    | ⟨0, _⟩ => exact (rhs_row _ _).trans hk
    | ⟨1, _⟩ => exact rhs_col _ _)
  rw [el, er]

/-- The body's arithmetic at an entry of the block: row `p` of the left block against column `q` of the weights,
    scaled by the column vector's entry of row `p`. -/
theorem pay_entry (x0 : Vec Ideal S5000x128 .f32) (x1 : Vec Ideal S128x128 .f32) (x2 : Vec Ideal S5000x1 .f32)
    (p : Fin 5000) (q : Fin 128) :
    k0_pay1 x0 x1 x2 (ix2 p q) = (∑ k : Fin 128, x0 (ix2 p k) * x1 (ix2 k q)) * x2 (ix2 p (0 : Fin 1)) := by
  unfold k0_pay1
  rw [mulf_apply, matmul_entry, Cert.Lib.broadcastTo_a1_ab_apply, shapeCast_self, shapeCast_self]
  rfl

/-- Entry `(r, j)` of the region's result from its three input arrays: row `r` of the first against column `j` of the
    second, scaled by the third's entry of row `r`. -/
def entry (a0 : S50000x128.Idx → EReal) (a1 : S128x128.Idx → EReal) (a2 : S50000x1.Idx → EReal)
    (r : Fin 50000) (j : Fin 128) : EReal :=
  (∑ k : Fin 128, a0 (ix2 r k) * a1 (ix2 k j)) * a2 (ix2 r (0 : Fin 1))

/-- The whole result array as one function of the input arrays. -/
def whole (a0 : S50000x128.Idx → EReal) (a1 : S128x128.Idx → EReal) (a2 : S50000x1.Idx → EReal) :
    S50000x128.Idx → EReal :=
  fun i => entry a0 a1 a2 ⟨(i 0).val, (i 0).isLt⟩ ⟨(i 1).val, (i 1).isLt⟩

/-- The whole result read at an index whose coordinates are `r` and `j`. -/
theorem whole_apply (a0 : S50000x128.Idx → EReal) (a1 : S128x128.Idx → EReal) (a2 : S50000x1.Idx → EReal)
    (i : S50000x128.Idx) (r : Fin 50000) (j : Fin 128) (h0 : (i 0).val = r.val) (h1 : (i 1).val = j.val) :
    whole a0 a1 a2 i = entry a0 a1 a2 r j := by
  have e0 : (⟨(i 0).val, (i 0).isLt⟩ : Fin 50000) = r := Fin.ext h0
  have e1 : (⟨(i 1).val, (i 1).isLt⟩ : Fin 128) = j := Fin.ext h1
  show entry a0 a1 a2 ⟨(i 0).val, (i 0).isLt⟩ ⟨(i 1).val, (i 1).isLt⟩ = _
  rw [e0, e1]

/-- One block's arithmetic is the result's on the block's rows: when the left block holds rows `5000·T …` of the first
    array, the weights block is the whole second array and the column block holds the same rows of the third. -/
theorem pay_rows (x0 : Vec Ideal S5000x128 .f32) (x1 : Vec Ideal S128x128 .f32) (x2 : Vec Ideal S5000x1 .f32)
    (a0 : S50000x128.Idx → EReal) (a1 : S128x128.Idx → EReal) (a2 : S50000x1.Idx → EReal)
    (p : Fin 5000) (q : Fin 128) (r : Fin 50000)
    (h0 : ∀ k : Fin 128, x0 (ix2 p k) = a0 (ix2 r k))
    (h1 : ∀ k : Fin 128, x1 (ix2 k q) = a1 (ix2 k q))
    (h2 : x2 (ix2 p (0 : Fin 1)) = a2 (ix2 r (0 : Fin 1))) :
    k0_pay1 x0 x1 x2 (ix2 p q) = entry a0 a1 a2 r q := by
  rw [pay_entry, h2]
  unfold entry
  exact congrArg (· * a2 (ix2 r (0 : Fin 1))) (Finset.sum_congr rfl fun k _ => by rw [h0 k, h1 k])

/-- The printed index maps over the ten grid points: the row-blocked windows sit at block `(t, 0)`, the weights at `(0, 0)`. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

variable (V : (c : Dev nD) → (b : Ref sig .tc) → Buf (Elt Ideal) ((c : Thread nD τ).loc b))

/-- The first window's block at point `t` holds rows `5000·t …` of the first array. -/
theorem blk0_entry (c : Dev nD) (t : Fin cfg0.N) (p : Fin 5000) (k : Fin 128) (r : Fin 50000) (hr : r.val = 5000 * t.val + p.val) :
    (iblk0 V c 0 t : Vec Ideal S5000x128 .f32) (ix2 p k) = (V c main_arg0 : S50000x128.Idx → EReal) (ix2 r k) := by
  obtain ⟨e00, e01, -⟩ := idx_facts t
  unfold iblk0
  rw [View.read_apply]
  refine congrArg (V c main_arg0 : S50000x128.Idx → EReal) (funext fun a => Fin.ext ?_)
  match a with
  | ⟨0, _⟩ => show win0_0.index t (0 : Fin 2) * 5000 + 1 * p.val = r.val; omega
  | ⟨1, _⟩ => show win0_0.index t (1 : Fin 2) * 128 + 1 * k.val = k.val; omega

/-- The second window's block is the whole weights array at every point. -/
theorem blk1_entry (c : Dev nD) (t : Fin cfg0.N) (k : Fin 128) (q : Fin 128) :
    (iblk0 V c 1 t : Vec Ideal S128x128 .f32) (ix2 k q) = (V c main_arg2 : S128x128.Idx → EReal) (ix2 k q) := by
  obtain ⟨-, -, e10, e11, -⟩ := idx_facts t
  unfold iblk0
  rw [View.read_apply]
  refine congrArg (V c main_arg2 : S128x128.Idx → EReal) (funext fun a => Fin.ext ?_)
  match a with
  | ⟨0, _⟩ => show win0_1.index t (0 : Fin 2) * 128 + 1 * k.val = k.val; omega
  | ⟨1, _⟩ => show win0_1.index t (1 : Fin 2) * 128 + 1 * q.val = q.val; omega

/-- The third window's block at point `t` holds rows `5000·t …` of the column array. -/
theorem blk2_entry (c : Dev nD) (t : Fin cfg0.N) (p : Fin 5000) (r : Fin 50000) (hr : r.val = 5000 * t.val + p.val) :
    (iblk0 V c 2 t : Vec Ideal S5000x1 .f32) (ix2 p (0 : Fin 1)) = (V c main_v17 : S50000x1.Idx → EReal) (ix2 r (0 : Fin 1)) := by
  obtain ⟨-, -, -, -, e20, e21, -⟩ := idx_facts t
  unfold iblk0
  rw [View.read_apply]
  refine congrArg (V c main_v17 : S50000x1.Idx → EReal) (funext fun a => Fin.ext ?_)
  match a with
  | ⟨0, _⟩ => show win0_2.index t (0 : Fin 2) * 5000 + 1 * p.val = r.val; omega
  | ⟨1, _⟩ => show win0_2.index t (1 : Fin 2) * 1 + 1 * (0 : Fin 1).val = (0 : Fin 1).val; simp only [Fin.val_zero]; omega

/-- What point `t` writes back is block `t` of the whole result. -/
theorem flushed_eq (c : Dev nD) (t : Fin cfg0.N) :
    (dat0 (F := Ideal) V c).flushed 3 t
      = ((cfg0.win 3).blk t).view.read (Elt Ideal) (whole (V c main_arg0) (V c main_arg2) (V c main_v17)) := by
  show (cfg0.win 3).cut (grid0.coords t) ((dat0 V c).after 3 t) = _
  rw [after0_3]
  unfold out0_3
  rw [View.canon_unit_zero hz]
  simp only [View.ld_unit_zero (S := S5000x128) hz, View.ld_unit_zero (S := S128x128) hz, View.ld_unit_zero (S := S5000x1) hz]
  obtain ⟨-, -, -, -, -, -, e30, e31⟩ := idx_facts t
  have ht : t.val < 10 := t.isLt
  funext y
  obtain ⟨p, q, rfl⟩ : ∃ (p : Fin 5000) (q : Fin 128), y = ix2 p q := ⟨y 0, y 1, eq_ix2 y⟩
  rw [View.read_apply]
  have hr : 5000 * t.val + p.val < 50000 := by have := p.isLt; omega
  refine (pay_rows _ _ _ (V c main_arg0) (V c main_arg2) (V c main_v17) p q ⟨5000 * t.val + p.val, hr⟩
    (fun k => blk0_entry V c t p k _ rfl) (fun k => blk1_entry V c t k q) (blk2_entry V c t p _ rfl)).trans ?_
  refine (whole_apply _ _ _ _ _ _ ?_ ?_).symm
  · show win0_3.index t (0 : Fin 2) * 5000 + 1 * p.val = 5000 * t.val + p.val
    omega
  · show win0_3.index t (1 : Fin 2) * 128 + 1 * q.val = q.val
    omega

/-- An index of the result array is in point `t`'s block iff each coordinate is in the block's range on its axis. -/
theorem mem_blk (t : Fin cfg0.N) (i : S50000x128.Idx) :
    i ∈ ((cfg0.win 3).blk t).view.set ↔ ∀ a : Fin 2, win0_3.index t a * S5000x128.size a ≤ (i a).val ∧ (i a).val < win0_3.index t a * S5000x128.size a + S5000x128.size a := by
  show i ∈ ((View.whole main_v18).slice (win0_3.rect t)).set ↔ _
  rw [View.set_slice_whole, Rect.mem_set_unit]
  exact Iff.rfl

/-- Every row is in some point's block: row `r` in that of point `r / 5000`. -/
theorem covered (i : S50000x128.Idx) :
    ∃ t : Fin cfg0.N, (cfg0.win 3).flush t = true ∧ i ∈ ((cfg0.win 3).blk t).view.set := by
  have hi0 : (i 0).val < 50000 := (i 0).isLt
  have hi1 : (i 1).val < 128 := (i 1).isLt
  have hN : (i 0).val / 5000 < cfg0.N := by show (i 0).val / 5000 < grid0.N; rw [N_0]; omega
  refine ⟨⟨(i 0).val / 5000, hN⟩, flush0_3 _, ?_⟩
  obtain ⟨-, -, -, -, -, -, e30, e31⟩ := idx_facts ⟨(i 0).val / 5000, hN⟩
  rw [mem_blk]
  intro a
  match a with
  | ⟨0, _⟩ =>
    show win0_3.index ⟨(i 0).val / 5000, hN⟩ (0 : Fin 2) * 5000 ≤ (i 0).val ∧ (i 0).val < win0_3.index ⟨(i 0).val / 5000, hN⟩ (0 : Fin 2) * 5000 + 5000
    rw [e30]; show (i 0).val / 5000 * 5000 ≤ (i 0).val ∧ (i 0).val < (i 0).val / 5000 * 5000 + 5000
    omega
  | ⟨1, _⟩ =>
    show win0_3.index ⟨(i 0).val / 5000, hN⟩ (1 : Fin 2) * 128 ≤ (i 1).val ∧ (i 1).val < win0_3.index ⟨(i 0).val / 5000, hN⟩ (1 : Fin 2) * 128 + 128
    rw [e31]; omega

/-- The result array after the whole region is the closed form of the region's input arrays. -/
theorem final0 (c : Dev nD) :
    (dat0 (F := Ideal) V c).arrAt 3 cfg0.N = whole (V c main_arg0) (V c main_arg2) (V c main_v17) :=
  (dat0 V c).arrAt_eq_of_cover 3 (whole (V c main_arg0) (V c main_arg2) (V c main_v17))
    (fun t _ => flushed_eq V c t) covered

/-- Region 0's result at row `r` and column `j`: row `r` of the first input against column `j` of the weights, scaled
    by the column input's entry of row `r`. -/
theorem final0_apply (c : Dev nD) (r : Fin 50000) (j : Fin 128) :
    ((dat0 (F := Ideal) V c).arrAt 3 cfg0.N : S50000x128.Idx → EReal) (ix2 r j)
      = entry (V c main_arg0) (V c main_arg2) (V c main_v17) r j :=
  (congrFun (final0 V c) (ix2 r j)).trans (whole_apply _ _ _ (ix2 r j) r j rfl rfl)

/-- The same with the three input arrays named: whatever they are known to be, the result's entry is the formula of those. -/
theorem final0_apply_of (c : Dev nD) (r : Fin 50000) (j : Fin 128)
    (a0 : S50000x128.Idx → EReal) (a1 : S128x128.Idx → EReal) (a2 : S50000x1.Idx → EReal)
    (h0 : V c main_arg0 = a0) (h1 : V c main_arg2 = a1) (h2 : V c main_v17 = a2) :
    ((dat0 (F := Ideal) V c).arrAt 3 cfg0.N : S50000x128.Idx → EReal) (ix2 r j)
      = (∑ k : Fin 128, a0 (ix2 r k) * a1 (ix2 k j)) * a2 (ix2 r (0 : Fin 1)) := by
  subst h0 h1 h2
  exact final0_apply V c r j

end Cert.KernelIdeal.Reg0

end
-- ==== Proof.KReg1.lean ====
/-
  Region 1 of the program: a row-scaled, biased, rectified matrix times a weight matrix, scaled by row again.
  With agg the [50000,128] input, dis the [50000,1] column of per-row scales, bias the [1,128] row and w the
  [128,128] weights, the region's output array holds at row r, column j
      (∑ k, max (agg r k * dis r + bias k) 0 * w k j) * dis r.
  The grid has 10 points; point t works on rows 5000·t … 5000·t + 4999 of agg, dis and the output, and on the
  whole of bias and w. First the body's arithmetic is read at one entry of a block; then each point's written block
  is identified with the block of the closed formula; the ten blocks tile the array.
-/
import proofs.«134857_j43654047596701_2_alg».proof.Proof.Gen.KernelIdeal.Frame
import proofs.«134857_j43654047596701_2_alg».proof.Proof.LibBroadcastColumn
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Reg1

open Cert.KernelIdeal Cert.KernelIdeal.Gen Idealize.ShloMosaic Idealize.ShloMosaic.TcCoe Idealize.ShloMosaic.ValueIdx
open Idealize.ShloMosaic.Pipeline (Dat)

/-! ## The contraction of the block product, coordinate by coordinate -/

/-- The left operand is read at the output's row … -/
theorem lhs_row (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
/-- … and at the contracted index as its column; -/
theorem lhs_col (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
/-- the right operand at the contracted index as its row … -/
theorem rhs_row (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
/-- … and at the output's column. -/
theorem rhs_col (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- A block product into a zero accumulator, read at (p, q): the plain sum over the 128 contracted indices. -/
theorem blockProduct_apply (l : FVec Ideal S5000x128 .bf16) (r : FVec Ideal S128x128 .bf16) (p : Fin 5000) (q : Fin 128) :
    matmul dot_S5000x128_S128x128_S5000x128_1_0_0_1_n_n none l r (constant (F := Ideal) S5000x128 .f32 0x00000000#32) (ix2 p q)
      = ∑ k : Fin 128, l (ix2 p k) * r (ix2 k q) := by
  simp only [matmul]
  rw [Ideal.matmul_constant_zero_apply, ← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx (ix2 p q) ((contrEquiv1 dot_S5000x128_S128x128_S5000x128_1_0_0_1_n_n 128 rfl rfl).symm k) = ix2 p k := funext fun a => Fin.ext (by
    match a with
    | ⟨0, _⟩ => exact lhs_row _ _
    | ⟨1, _⟩ => exact (lhs_col _ _).trans hk)
  have er : dot_S5000x128_S128x128_S5000x128_1_0_0_1_n_n.rhsIdx (ix2 p q) ((contrEquiv1 dot_S5000x128_S128x128_S5000x128_1_0_0_1_n_n 128 rfl rfl).symm k) = ix2 k q := funext fun a => Fin.ext (by
    match a with
    | ⟨0, _⟩ => exact (rhs_row _ _).trans hk
    | ⟨1, _⟩ => exact rhs_col _ _)
  rw [el, er]

/-! ## The body's arithmetic at one entry of a block -/

/-- The body's result at row p, column q of a block, from the four loaded blocks: d the scales' column, a the
    input rows, b the bias row, w the weights. -/
theorem payload_apply (d : Vec Ideal S5000x1 .f32) (a : Vec Ideal S5000x128 .f32) (b : Vec Ideal S1x128 .f32) (w : Vec Ideal S128x128 .f32)
    (p : Fin 5000) (q : Fin 128) :
    (k1_pay1 d a b w : S5000x128.Idx → EReal) (ix2 p q)
      = (∑ k : Fin 128, max ((a : S5000x128.Idx → EReal) (ix2 p k) * (d : S5000x1.Idx → EReal) (ix2 p (0 : Fin 1))
            + (b : S1x128.Idx → EReal) (ix2 (0 : Fin 1) k)) 0 * (w : S128x128.Idx → EReal) (ix2 k q))
          * (d : S5000x1.Idx → EReal) (ix2 p (0 : Fin 1)) := by
  unfold k1_pay1
  simp only [shapeCast_self]
  rw [mulf_apply, blockProduct_apply, Cert.Lib.broadcastTo_a1_ab_apply]
  refine congrArg (· * _) (Finset.sum_congr rfl fun k _ => ?_)
  rw [truncf_apply, truncf_apply, maximumf_apply, addf_apply, mulf_apply, Cert.Lib.broadcastTo_a1_ab_apply,
    broadcastTo_1b_ab_apply, broadcast_apply]
  show max _ (Ideal.ofBits .f32 0x00000000#32) * _ = _
  rw [Ideal.ofBits_zero_f32]

/-! ## The closed formula, and the block of it that each grid point writes -/

/-- The entry of the region's result at row r, column j, from the region's four input arrays. -/
def entry (a0 : S50000x128.Idx → EReal) (a1 : S50000x1.Idx → EReal) (a2 : S1x128.Idx → EReal) (a3 : S128x128.Idx → EReal)
    (r : Fin 50000) (j : Fin 128) : EReal :=
  (∑ k : Fin 128, max (a0 (ix2 r k) * a1 (ix2 r (0 : Fin 1)) + a2 (ix2 (0 : Fin 1) k)) 0 * a3 (ix2 k j)) * a1 (ix2 r (0 : Fin 1))

/-- The whole result array as one function of its index. -/
def result (A : S50000x128.Idx → EReal) (D : S50000x1.Idx → EReal) (B : S1x128.Idx → EReal) (W : S128x128.Idx → EReal) :
    S50000x128.Idx → EReal :=
  fun i => entry A D B W ⟨(i 0).val, idx2_lt0 i⟩ ⟨(i 1).val, idx2_lt1 i⟩

/-- The body's result at (p, q) of a block is the closed formula's entry at row r, once the four loaded blocks are known
    to hold row r of the input and of the scales, the whole bias row and the whole weights. -/
theorem payload_entry (d : Vec Ideal S5000x1 .f32) (a : Vec Ideal S5000x128 .f32) (b : Vec Ideal S1x128 .f32) (w : Vec Ideal S128x128 .f32)
    (A : S50000x128.Idx → EReal) (D : S50000x1.Idx → EReal) (B : S1x128.Idx → EReal) (W : S128x128.Idx → EReal)
    (p : Fin 5000) (q : Fin 128) (r : Fin 50000)
    (ha : ∀ k : Fin 128, (a : S5000x128.Idx → EReal) (ix2 p k) = A (ix2 r k))
    (hd : (d : S5000x1.Idx → EReal) (ix2 p (0 : Fin 1)) = D (ix2 r (0 : Fin 1)))
    (hb : ∀ k : Fin 128, (b : S1x128.Idx → EReal) (ix2 (0 : Fin 1) k) = B (ix2 (0 : Fin 1) k))
    (hw : ∀ k : Fin 128, (w : S128x128.Idx → EReal) (ix2 k q) = W (ix2 k q)) :
    (k1_pay1 d a b w : S5000x128.Idx → EReal) (ix2 p q) = entry A D B W r q := by
  rw [payload_apply, hd]
  unfold entry
  refine congrArg (· * _) (Finset.sum_congr rfl fun k _ => ?_)
  rw [ha k, hb k, hw k]

theorem zeroOffsets : (![0, 0] : Fin 2 → Nat) = fun _ => 0 := funext fun a => by fin_cases a <;> rfl

/-- The printed index maps over the ten grid points: the row-blocked windows (input, scales, output) sit at block (t, 0),
    the bias and the weights at block (0, 0). -/
theorem blockIndices : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

variable (V : (c : Dev nD) → (b : Ref sig .tc) → Buf (Elt Ideal) ((c : Thread nD τ).loc b))

/-- The input window's block at point t holds rows 5000·t … of the input array. -/
theorem block_input (c : Dev nD) (t : Fin cfg1.N) (x : S5000x128.Idx) (i : S50000x128.Idx)
    (h0 : (i 0).val = t.val * 5000 + (x 0).val) (h1 : (i 1).val = (x 1).val) :
    (iblk1 V c 0 t : S5000x128.Idx → EReal) x = (V c main_v28 : S50000x128.Idx → EReal) i := by
  obtain ⟨e0, e1, -⟩ := blockIndices t
  show V c main_v28 (((cfg1.win 0).blk t).view.emb x) = V c main_v28 i
  refine congrArg _ (funext fun a => Fin.ext ?_)
  match a with
  | ⟨0, _⟩ => show win1_0.index t (0 : Fin 2) * 5000 + 1 * (x 0).val = (i 0).val; omega
  | ⟨1, _⟩ => show win1_0.index t (1 : Fin 2) * 128 + 1 * (x 1).val = (i 1).val; omega

/-- The scales' block at point t holds rows 5000·t … of the scales' column. -/
theorem block_scales (c : Dev nD) (t : Fin cfg1.N) (x : S5000x1.Idx) (i : S50000x1.Idx)
    (h0 : (i 0).val = t.val * 5000 + (x 0).val) (h1 : (i 1).val = (x 1).val) :
    (iblk1 V c 1 t : S5000x1.Idx → EReal) x = (V c main_v17 : S50000x1.Idx → EReal) i := by
  obtain ⟨-, -, e0, e1, -⟩ := blockIndices t
  show V c main_v17 (((cfg1.win 1).blk t).view.emb x) = V c main_v17 i
  refine congrArg _ (funext fun a => Fin.ext ?_)
  match a with
  | ⟨0, _⟩ => show win1_1.index t (0 : Fin 2) * 5000 + 1 * (x 0).val = (i 0).val; omega
  | ⟨1, _⟩ => show win1_1.index t (1 : Fin 2) * 1 + 1 * (x 1).val = (i 1).val; omega

/-- The bias window's block is the whole bias row at every point. -/
theorem block_bias (c : Dev nD) (t : Fin cfg1.N) (x : S1x128.Idx) :
    (iblk1 V c 2 t : S1x128.Idx → EReal) x = (V c main_v29 : S1x128.Idx → EReal) x := by
  obtain ⟨-, -, -, -, e0, e1, -⟩ := blockIndices t
  show V c main_v29 (((cfg1.win 2).blk t).view.emb x) = V c main_v29 x
  refine congrArg _ (funext fun a => Fin.ext ?_)
  match a with
  | ⟨0, _⟩ => show win1_2.index t (0 : Fin 2) * 1 + 1 * (x 0).val = (x 0).val; omega
  | ⟨1, _⟩ => show win1_2.index t (1 : Fin 2) * 128 + 1 * (x 1).val = (x 1).val; omega

/-- The weights' block is the whole weight matrix at every point. -/
theorem block_weights (c : Dev nD) (t : Fin cfg1.N) (x : S128x128.Idx) :
    (iblk1 V c 3 t : S128x128.Idx → EReal) x = (V c main_arg4 : S128x128.Idx → EReal) x := by
  obtain ⟨-, -, -, -, -, -, e0, e1, -⟩ := blockIndices t
  show V c main_arg4 (((cfg1.win 3).blk t).view.emb x) = V c main_arg4 x
  refine congrArg _ (funext fun a => Fin.ext ?_)
  match a with
  | ⟨0, _⟩ => show win1_3.index t (0 : Fin 2) * 128 + 1 * (x 0).val = (x 0).val; omega
  | ⟨1, _⟩ => show win1_3.index t (1 : Fin 2) * 128 + 1 * (x 1).val = (x 1).val; omega

/-- What point t writes back to the output array is block t of the closed formula of the region's input arrays. -/
theorem written_block (c : Dev nD) (t : Fin cfg1.N) :
    (dat1 (F := Ideal) V c).flushed 4 t
      = ((cfg1.win 4).blk t).view.read (Elt Ideal) (result (V c main_v28) (V c main_v17) (V c main_v29) (V c main_arg4)) := by
  show (cfg1.win 4).cut (grid1.coords t) ((dat1 V c).after 4 t) = _
  rw [after1_4]
  unfold out1_4
  rw [View.canon_unit_zero zeroOffsets]
  simp only [View.ld_unit_zero (S := S5000x128) zeroOffsets, View.ld_unit_zero (S := S5000x1) zeroOffsets,
    View.ld_unit_zero (S := S1x128) zeroOffsets, View.ld_unit_zero (S := S128x128) zeroOffsets]
  obtain ⟨-, -, -, -, -, -, -, -, e0, e1⟩ := blockIndices t
  funext y
  obtain ⟨p, q, rfl⟩ : ∃ (p : Fin 5000) (q : Fin 128), y = ix2 p q := ⟨y 0, y 1, eq_ix2 y⟩
  show (k1_pay1 (iblk1 V c 1 t) (iblk1 V c 0 t) (iblk1 V c 2 t) (iblk1 V c 3 t) : S5000x128.Idx → EReal) (ix2 p q)
    = result (V c main_v28) (V c main_v17) (V c main_v29) (V c main_arg4) (((cfg1.win 4).blk t).view.emb (ix2 p q))
  have hr : ((((cfg1.win 4).blk t).view.emb (ix2 p q)) 0).val = t.val * 5000 + p.val := by
    show win1_4.index t (0 : Fin 2) * 5000 + 1 * p.val = _; omega
  have hc : ((((cfg1.win 4).blk t).view.emb (ix2 p q)) 1).val = q.val := by
    show win1_4.index t (1 : Fin 2) * 128 + 1 * q.val = _; omega
  unfold result
  refine (payload_entry (iblk1 V c 1 t) (iblk1 V c 0 t) (iblk1 V c 2 t) (iblk1 V c 3 t)
    (V c main_v28) (V c main_v17) (V c main_v29) (V c main_arg4) p q ⟨_, idx2_lt0 (((cfg1.win 4).blk t).view.emb (ix2 p q))⟩
    (fun k => block_input V c t (ix2 p k) _ hr rfl) (block_scales V c t (ix2 p (0 : Fin 1)) _ hr rfl)
    (fun k => block_bias V c t _) (fun k => block_weights V c t _)).trans ?_
  exact congrArg (entry _ _ _ _ _) (Fin.ext hc.symm)

/-- An index of the output array is in point t's block iff each coordinate is in the block's range on its axis. -/
theorem mem_block (t : Fin cfg1.N) (i : S50000x128.Idx) :
    i ∈ ((cfg1.win 4).blk t).view.set
      ↔ ∀ a : Fin 2, win1_4.index t a * S5000x128.size a ≤ (i a).val ∧ (i a).val < win1_4.index t a * S5000x128.size a + S5000x128.size a := by
  show i ∈ ((View.whole main_v30).slice (win1_4.rect t)).set ↔ _
  rw [View.set_slice_whole, Rect.mem_set_unit]
  exact Iff.rfl

/-- Row r of the output array is written by point r / 5000: the ten blocks tile the array. -/
theorem covered (i : S50000x128.Idx) :
    ∃ t : Fin cfg1.N, (cfg1.win 4).flush t = true ∧ i ∈ ((cfg1.win 4).blk t).view.set := by
  have hi0 : (i 0).val < 50000 := idx2_lt0 i
  have hi1 : (i 1).val < 128 := idx2_lt1 i
  obtain ⟨t, ht⟩ : ∃ t : Fin cfg1.N, t.val = (i 0).val / 5000 :=
    ⟨⟨(i 0).val / 5000, by rw [show cfg1.N = 10 from N_1]; omega⟩, rfl⟩
  obtain ⟨-, -, -, -, -, -, -, -, e0, e1⟩ := blockIndices t
  refine ⟨t, flush1_4 t, ?_⟩
  rw [mem_block]
  intro a
  match a with
  | ⟨0, _⟩ => show win1_4.index t (0 : Fin 2) * 5000 ≤ (i 0).val ∧ (i 0).val < win1_4.index t (0 : Fin 2) * 5000 + 5000; omega
  | ⟨1, _⟩ => show win1_4.index t (1 : Fin 2) * 128 ≤ (i 1).val ∧ (i 1).val < win1_4.index t (1 : Fin 2) * 128 + 128; omega

/-- The output array after the whole region is the closed formula of the region's input arrays. -/
theorem final1 (c : Dev nD) :
    (dat1 (F := Ideal) V c).arrAt 4 cfg1.N = result (V c main_v28) (V c main_v17) (V c main_v29) (V c main_arg4) :=
  (dat1 (F := Ideal) V c).arrAt_eq_of_cover 4 (result (V c main_v28) (V c main_v17) (V c main_v29) (V c main_arg4))
    (fun t _ => written_block V c t) covered

/-- The output array after the whole region, read at row r and column j, is the entry of the closed formula. -/
theorem final1_apply (c : Dev nD) (r : Fin 50000) (j : Fin 128) :
    ((dat1 (F := Ideal) V c).arrAt 4 cfg1.N : S50000x128.Idx → EReal) (ix2 r j)
      = entry (V c main_v28) (V c main_v17) (V c main_v29) (V c main_arg4) r j := by
  rw [final1]
  rfl

/-- The same with the formula written out over the four arrays the region finds: a0 the input, a1 the scales' column,
    a2 the bias row, a3 the weights. -/
theorem final1_apply_of (c : Dev nD) (r : Fin 50000) (j : Fin 128)
    (a0 : S50000x128.Idx → EReal) (a1 : S50000x1.Idx → EReal) (a2 : S1x128.Idx → EReal) (a3 : S128x128.Idx → EReal)
    (h0 : V c main_v28 = a0) (h1 : V c main_v17 = a1) (h2 : V c main_v29 = a2) (h3 : V c main_arg4 = a3) :
    ((dat1 (F := Ideal) V c).arrAt 4 cfg1.N : S50000x128.Idx → EReal) (ix2 r j)
      = (∑ k : Fin 128, max (a0 (ix2 r k) * a1 (ix2 r (0 : Fin 1)) + a2 (ix2 (0 : Fin 1) k)) 0 * a3 (ix2 k j))
          * a1 (ix2 r (0 : Fin 1)) := by
  subst h0 h1 h2 h3
  exact final1_apply V c r j

end Cert.KernelIdeal.Reg1

end
-- ==== Proof.KReg2.lean ====
/-
  Region 2 of the program: rows scaled and a bias added. With a the [50000,128] input, dis the [50000,1] column of
  per-row scales and b the [1,128] bias row, the region's output array holds at row r, column j
      a r j * dis r + b j.
  The grid has 10 points; point t works on rows 5000·t … 5000·t + 4999 of a, dis and the output, and on the whole of b.
-/
import proofs.«134857_j43654047596701_2_alg».proof.Proof.Gen.KernelIdeal.Frame
import proofs.«134857_j43654047596701_2_alg».proof.Proof.LibBroadcastColumn
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Reg2

open Cert.KernelIdeal Cert.KernelIdeal.Gen Idealize.ShloMosaic Idealize.ShloMosaic.ValueIdx
open Idealize.ShloMosaic.TcCoe Idealize.SL.Sem
open Idealize.ShloMosaic.Pipeline (Dat)

theorem hz : (![0, 0] : Fin 2 → Nat) = fun _ => 0 := funext fun a => by fin_cases a <;> rfl

/-- The body's arithmetic at an entry of the block: the matrix block's entry scaled by the column vector's entry of its
    row, plus the bias row's entry of its column. -/
theorem pay_entry (x0 : Vec Ideal S5000x1 .f32) (x1 : Vec Ideal S5000x128 .f32) (x2 : Vec Ideal S1x128 .f32)
    (p : Fin 5000) (q : Fin 128) :
    k2_pay1 x0 x1 x2 (ix2 p q) = x1 (ix2 p q) * x0 (ix2 p (0 : Fin 1)) + x2 (ix2 (0 : Fin 1) q) := by
  unfold k2_pay1
  rw [addf_apply, mulf_apply, Cert.Lib.broadcastTo_a1_ab_apply, broadcastTo_1b_ab_apply, shapeCast_self, shapeCast_self,
    shapeCast_self, shapeCast_self]

/-- Entry `(r, j)` of the region's result from its three input arrays. -/
def entry (a0 : S50000x128.Idx → EReal) (a1 : S50000x1.Idx → EReal) (a2 : S1x128.Idx → EReal)
    (r : Fin 50000) (j : Fin 128) : EReal :=
  a0 (ix2 r j) * a1 (ix2 r (0 : Fin 1)) + a2 (ix2 (0 : Fin 1) j)

/-- The whole result array as one function of the input arrays. -/
def whole (a0 : S50000x128.Idx → EReal) (a1 : S50000x1.Idx → EReal) (a2 : S1x128.Idx → EReal) :
    S50000x128.Idx → EReal :=
  fun i => entry a0 a1 a2 ⟨(i 0).val, (i 0).isLt⟩ ⟨(i 1).val, (i 1).isLt⟩

/-- The whole result read at an index whose coordinates are `r` and `j`. -/
theorem whole_apply (a0 : S50000x128.Idx → EReal) (a1 : S50000x1.Idx → EReal) (a2 : S1x128.Idx → EReal)
    (i : S50000x128.Idx) (r : Fin 50000) (j : Fin 128) (h0 : (i 0).val = r.val) (h1 : (i 1).val = j.val) :
    whole a0 a1 a2 i = entry a0 a1 a2 r j := by
  have e0 : (⟨(i 0).val, (i 0).isLt⟩ : Fin 50000) = r := Fin.ext h0
  have e1 : (⟨(i 1).val, (i 1).isLt⟩ : Fin 128) = j := Fin.ext h1
  show entry a0 a1 a2 ⟨(i 0).val, (i 0).isLt⟩ ⟨(i 1).val, (i 1).isLt⟩ = _
  rw [e0, e1]

/-- One block's arithmetic is the result's on the block's rows: when the matrix block and the column block hold rows
    `5000·t …` of their arrays and the bias block is the whole bias row. -/
theorem pay_rows (x0 : Vec Ideal S5000x1 .f32) (x1 : Vec Ideal S5000x128 .f32) (x2 : Vec Ideal S1x128 .f32)
    (a0 : S50000x128.Idx → EReal) (a1 : S50000x1.Idx → EReal) (a2 : S1x128.Idx → EReal)
    (p : Fin 5000) (q : Fin 128) (r : Fin 50000)
    (h0 : x1 (ix2 p q) = a0 (ix2 r q))
    (h1 : x0 (ix2 p (0 : Fin 1)) = a1 (ix2 r (0 : Fin 1)))
    (h2 : x2 (ix2 (0 : Fin 1) q) = a2 (ix2 (0 : Fin 1) q)) :
    k2_pay1 x0 x1 x2 (ix2 p q) = entry a0 a1 a2 r q := by
  rw [pay_entry, h0, h1, h2]
  rfl

/-- The printed index maps over the ten grid points: the row-blocked windows sit at block `(t, 0)`, the bias row at `(0, 0)`. -/
theorem idx_facts : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

variable (V : (c : Dev nD) → (b : Ref sig .tc) → Buf (Elt Ideal) ((c : Thread nD τ).loc b))

/-- The first window's block at point `t` holds rows `5000·t …` of the matrix input. -/
theorem blk0_entry (c : Dev nD) (t : Fin cfg2.N) (p : Fin 5000) (q : Fin 128) (r : Fin 50000) (hr : r.val = 5000 * t.val + p.val) :
    (iblk2 V c 0 t : Vec Ideal S5000x128 .f32) (ix2 p q) = (V c main_v40 : S50000x128.Idx → EReal) (ix2 r q) := by
  obtain ⟨e00, e01, -⟩ := idx_facts t
  unfold iblk2
  rw [View.read_apply]
  refine congrArg (V c main_v40 : S50000x128.Idx → EReal) (funext fun a => Fin.ext ?_)
  match a with
  | ⟨0, _⟩ => show win2_0.index t (0 : Fin 2) * 5000 + 1 * p.val = r.val; omega
  | ⟨1, _⟩ => show win2_0.index t (1 : Fin 2) * 128 + 1 * q.val = q.val; omega

/-- The second window's block at point `t` holds rows `5000·t …` of the column input. -/
theorem blk1_entry (c : Dev nD) (t : Fin cfg2.N) (p : Fin 5000) (r : Fin 50000) (hr : r.val = 5000 * t.val + p.val) :
    (iblk2 V c 1 t : Vec Ideal S5000x1 .f32) (ix2 p (0 : Fin 1)) = (V c main_v17 : S50000x1.Idx → EReal) (ix2 r (0 : Fin 1)) := by
  obtain ⟨-, -, e10, e11, -⟩ := idx_facts t
  unfold iblk2
  rw [View.read_apply]
  refine congrArg (V c main_v17 : S50000x1.Idx → EReal) (funext fun a => Fin.ext ?_)
  match a with
  | ⟨0, _⟩ => show win2_1.index t (0 : Fin 2) * 5000 + 1 * p.val = r.val; omega
  | ⟨1, _⟩ => show win2_1.index t (1 : Fin 2) * 1 + 1 * (0 : Fin 1).val = (0 : Fin 1).val; simp only [Fin.val_zero]; omega

/-- The third window's block is the whole bias row at every point. -/
theorem blk2_entry (c : Dev nD) (t : Fin cfg2.N) (q : Fin 128) :
    (iblk2 V c 2 t : Vec Ideal S1x128 .f32) (ix2 (0 : Fin 1) q) = (V c main_v41 : S1x128.Idx → EReal) (ix2 (0 : Fin 1) q) := by
  obtain ⟨-, -, -, -, e20, e21, -⟩ := idx_facts t
  unfold iblk2
  rw [View.read_apply]
  refine congrArg (V c main_v41 : S1x128.Idx → EReal) (funext fun a => Fin.ext ?_)
  match a with
  | ⟨0, _⟩ => show win2_2.index t (0 : Fin 2) * 1 + 1 * (0 : Fin 1).val = (0 : Fin 1).val; simp only [Fin.val_zero]; omega
  | ⟨1, _⟩ => show win2_2.index t (1 : Fin 2) * 128 + 1 * q.val = q.val; omega

/-- What point `t` writes back is block `t` of the whole result. -/
theorem flushed_eq (c : Dev nD) (t : Fin cfg2.N) :
    (dat2 (F := Ideal) V c).flushed 3 t
      = ((cfg2.win 3).blk t).view.read (Elt Ideal) (whole (V c main_v40) (V c main_v17) (V c main_v41)) := by
  show (cfg2.win 3).cut (grid2.coords t) ((dat2 V c).after 3 t) = _
  rw [after2_3]
  unfold out2_3
  rw [View.canon_unit_zero hz]
  simp only [View.ld_unit_zero (S := S5000x128) hz, View.ld_unit_zero (S := S1x128) hz, View.ld_unit_zero (S := S5000x1) hz]
  obtain ⟨-, -, -, -, -, -, e30, e31⟩ := idx_facts t
  have ht : t.val < 10 := t.isLt
  funext y
  obtain ⟨p, q, rfl⟩ : ∃ (p : Fin 5000) (q : Fin 128), y = ix2 p q := ⟨y 0, y 1, eq_ix2 y⟩
  rw [View.read_apply]
  have hr : 5000 * t.val + p.val < 50000 := by have := p.isLt; omega
  refine (pay_rows _ _ _ (V c main_v40) (V c main_v17) (V c main_v41) p q ⟨5000 * t.val + p.val, hr⟩
    (blk0_entry V c t p q _ rfl) (blk1_entry V c t p _ rfl) (blk2_entry V c t q)).trans ?_
  refine (whole_apply _ _ _ _ _ _ ?_ ?_).symm
  · show win2_3.index t (0 : Fin 2) * 5000 + 1 * p.val = 5000 * t.val + p.val
    omega
  · show win2_3.index t (1 : Fin 2) * 128 + 1 * q.val = q.val
    omega

/-- An index of the result array is in point `t`'s block iff each coordinate is in the block's range on its axis. -/
theorem mem_blk (t : Fin cfg2.N) (i : S50000x128.Idx) :
    i ∈ ((cfg2.win 3).blk t).view.set ↔ ∀ a : Fin 2, win2_3.index t a * S5000x128.size a ≤ (i a).val ∧ (i a).val < win2_3.index t a * S5000x128.size a + S5000x128.size a := by
  show i ∈ ((View.whole main_v42).slice (win2_3.rect t)).set ↔ _
  rw [View.set_slice_whole, Rect.mem_set_unit]
  exact Iff.rfl

/-- Every row is in some point's block: row `r` in that of point `r / 5000`. -/
theorem covered (i : S50000x128.Idx) :
    ∃ t : Fin cfg2.N, (cfg2.win 3).flush t = true ∧ i ∈ ((cfg2.win 3).blk t).view.set := by
  have hi0 : (i 0).val < 50000 := (i 0).isLt
  have hi1 : (i 1).val < 128 := (i 1).isLt
  have hN : (i 0).val / 5000 < cfg2.N := by show (i 0).val / 5000 < grid2.N; rw [N_2]; omega
  refine ⟨⟨(i 0).val / 5000, hN⟩, flush2_3 _, ?_⟩
  obtain ⟨-, -, -, -, -, -, e30, e31⟩ := idx_facts ⟨(i 0).val / 5000, hN⟩
  rw [mem_blk]
  intro a
  match a with
  | ⟨0, _⟩ =>
    show win2_3.index ⟨(i 0).val / 5000, hN⟩ (0 : Fin 2) * 5000 ≤ (i 0).val ∧ (i 0).val < win2_3.index ⟨(i 0).val / 5000, hN⟩ (0 : Fin 2) * 5000 + 5000
    rw [e30]; show (i 0).val / 5000 * 5000 ≤ (i 0).val ∧ (i 0).val < (i 0).val / 5000 * 5000 + 5000
    omega
  | ⟨1, _⟩ =>
    show win2_3.index ⟨(i 0).val / 5000, hN⟩ (1 : Fin 2) * 128 ≤ (i 1).val ∧ (i 1).val < win2_3.index ⟨(i 0).val / 5000, hN⟩ (1 : Fin 2) * 128 + 128
    rw [e31]; omega

/-- The result array after the whole region is the closed form of the region's input arrays. -/
theorem final2 (c : Dev nD) :
    (dat2 (F := Ideal) V c).arrAt 3 cfg2.N = whole (V c main_v40) (V c main_v17) (V c main_v41) :=
  (dat2 V c).arrAt_eq_of_cover 3 (whole (V c main_v40) (V c main_v17) (V c main_v41))
    (fun t _ => flushed_eq V c t) covered

/-- Region 2's result at row `r` and column `j`: the matrix input's entry scaled by the column input's entry of row
    `r`, plus the bias row's entry of column `j`. -/
theorem final2_apply (c : Dev nD) (r : Fin 50000) (j : Fin 128) :
    ((dat2 (F := Ideal) V c).arrAt 3 cfg2.N : S50000x128.Idx → EReal) (ix2 r j)
      = entry (V c main_v40) (V c main_v17) (V c main_v41) r j :=
  (congrFun (final2 V c) (ix2 r j)).trans (whole_apply _ _ _ (ix2 r j) r j rfl rfl)

/-- The same with the three input arrays named: whatever they are known to be, the result's entry is the formula of those. -/
theorem final2_apply_of (c : Dev nD) (r : Fin 50000) (j : Fin 128)
    (a0 : S50000x128.Idx → EReal) (a1 : S50000x1.Idx → EReal) (a2 : S1x128.Idx → EReal)
    (h0 : V c main_v40 = a0) (h1 : V c main_v17 = a1) (h2 : V c main_v41 = a2) :
    ((dat2 (F := Ideal) V c).arrAt 3 cfg2.N : S50000x128.Idx → EReal) (ix2 r j)
      = a0 (ix2 r j) * a1 (ix2 r (0 : Fin 1)) + a2 (ix2 (0 : Fin 1) j) := by
  subst h0 h1 h2
  exact final2_apply V c r j

end Cert.KernelIdeal.Reg2

end
-- ==== Proof.KValue.lean ====
/-
  The fused program's result array, read at one element: the three regions' outputs composed with the two
  aggregations between them are the fused arrangement of the two-layer graph convolution — the first region writes
  `(x·w₁)` with each row scaled by its node's factor; the second takes the aggregated rows, scales them by the factor,
  adds the first bias, takes the positive part, multiplies by `w₂` and scales the rows again; the last takes the
  aggregated rows, scales them and adds the second bias.
-/
import proofs.«134857_j43654047596701_2_alg».proof.Proof.KBound
import proofs.«134857_j43654047596701_2_alg».proof.Proof.KIndex
import proofs.«134857_j43654047596701_2_alg».proof.Proof.KReg0
import proofs.«134857_j43654047596701_2_alg».proof.Proof.KReg1
import proofs.«134857_j43654047596701_2_alg».proof.Proof.KReg2

set_option maxRecDepth 16384

noncomputable section

namespace Cert.KernelIdeal.HostV

open Cert.KernelIdeal Cert.KernelIdeal.Gen
open Idealize.ShloMosaic Idealize.ShloMosaic.TcCoe Idealize.SL.Sem Idealize.ShloMosaic.ValueIdx
open scoped BigOperators

variable (m : (ℓ : Loc nD τ sig) → Buf (Elt Ideal) ℓ) (ρ : Dev nD → PrngReg) (c : Dev nD)

/-- The features, the two weight matrices and the two biases as launched, by coordinates. -/
def xF : Cert.Gcn.Feat := fun a b => (m ((c : Thread nD τ).loc main_arg0) : S50000x128.Idx → EReal) (ix2 a b)
def w1F : Cert.Gcn.Wgt := fun a b => (m ((c : Thread nD τ).loc main_arg2) : S128x128.Idx → EReal) (ix2 a b)
def b1F : Cert.Gcn.Bia := fun a => (m ((c : Thread nD τ).loc main_arg3) : S128.Idx → EReal) (ix1 a)
def w2F : Cert.Gcn.Wgt := fun a b => (m ((c : Thread nD τ).loc main_arg4) : S128x128.Idx → EReal) (ix2 a b)
def b2F : Cert.Gcn.Bia := fun a => (m ((c : Thread nD τ).loc main_arg5) : S128.Idx → EReal) (ix1 a)

/-- The first region's output: the rows of `x·w₁` scaled by their node's factor. -/
theorem y1_at (a : Fin 50000) (k : Fin 128) :
    (W4 (F := Ideal) m ρ c (Proc.devRef .tc main_v18) : S50000x128.Idx → EReal) (ix2 a k)
      = Cert.Gcn.scaled (disK (dstOf (m ((c : Thread nD τ).loc main_arg1) : S2x800000.Idx → BitVec 32))) (xF m c) (w1F m c) a k := by
  have h : (W4 (F := Ideal) m ρ c (Proc.devRef .tc main_v18) : S50000x128.Idx → EReal)
      = ((dat0 (F := Ideal) (V3 m ρ) c).arrAt 3 cfg0.N : S50000x128.Idx → EReal) := W4_arr m ρ c 3
  rw [h]
  refine (Cert.KernelIdeal.Reg0.final0_apply_of (V3 m ρ) c a k (m ((c : Thread nD τ).loc main_arg0)) (m ((c : Thread nD τ).loc main_arg2)) (shapeCast S50000x1 (disD (dstOf (m ((c : Thread nD τ).loc main_arg1) : S2x800000.Idx → BitVec 32))) shapeCasts_S50000_S50000x1)
    (W3_arg0 m ρ c) (W3_arg2 m ρ c) (W3_v17 m ρ c)).trans ?_
  rw [col_apply]
  rfl

/-- The first output as a table of rows. -/
theorem y1_eq : (fun a b => (W4 (F := Ideal) m ρ c (Proc.devRef .tc main_v18) : S50000x128.Idx → EReal) (ix2 a b))
    = Cert.Gcn.scaled (disK (dstOf (m ((c : Thread nD τ).loc main_arg1) : S2x800000.Idx → BitVec 32))) (xF m c) (w1F m c) :=
  funext fun a => funext fun b => y1_at m ρ c a b

/-- The second region's output: the hidden layer times `w₂`, its rows scaled by their node's factor. -/
theorem y2_at (a : Fin 50000) (k : Fin 128) :
    (W6 (F := Ideal) m ρ c (Proc.devRef .tc main_v30) : S50000x128.Idx → EReal) (ix2 a k)
      = Cert.Gcn.scaled (disK (dstOf (m ((c : Thread nD τ).loc main_arg1) : S2x800000.Idx → BitVec 32)))
          (Cert.Gcn.hid (disK (dstOf (m ((c : Thread nD τ).loc main_arg1) : S2x800000.Idx → BitVec 32))) (rowK (srcOf (m ((c : Thread nD τ).loc main_arg1) : S2x800000.Idx → BitVec 32))) (tgtK (dstOf (m ((c : Thread nD τ).loc main_arg1) : S2x800000.Idx → BitVec 32))) (xF m c) (w1F m c) (b1F m c)) (w2F m c) a k := by
  have h : (W6 (F := Ideal) m ρ c (Proc.devRef .tc main_v30) : S50000x128.Idx → EReal)
      = ((dat1 (F := Ideal) (V5 m ρ) c).arrAt 4 cfg1.N : S50000x128.Idx → EReal) := W6_arr m ρ c 4
  rw [h]
  refine (Cert.KernelIdeal.Reg1.final1_apply_of (V5 m ρ) c a k
    (aggSD (srcOf (m ((c : Thread nD τ).loc main_arg1) : S2x800000.Idx → BitVec 32)) (dstOf (m ((c : Thread nD τ).loc main_arg1) : S2x800000.Idx → BitVec 32)) (W4 (F := Ideal) m ρ c (Proc.devRef .tc main_v18))) (shapeCast S50000x1 (disD (dstOf (m ((c : Thread nD τ).loc main_arg1) : S2x800000.Idx → BitVec 32))) shapeCasts_S50000_S50000x1)
    (shapeCast S1x128 (m ((c : Thread nD τ).loc main_arg3) : S128.Idx → EReal) shapeCasts_S128_S1x128) (m ((c : Thread nD τ).loc main_arg4))
    (W5_v28 m ρ c) ((W5_v17 m ρ c).trans (W3_v17 m ρ c)) (W5_v29 m ρ c) (W5_arg4 m ρ c)).trans ?_
  simp only [aggSD_apply, col_apply, row_apply]
  rw [y1_eq m ρ c]
  rfl

/-- The second output as a table of rows. -/
theorem y2_eq : (fun a b => (W6 (F := Ideal) m ρ c (Proc.devRef .tc main_v30) : S50000x128.Idx → EReal) (ix2 a b))
    = Cert.Gcn.scaled (disK (dstOf (m ((c : Thread nD τ).loc main_arg1) : S2x800000.Idx → BitVec 32)))
        (Cert.Gcn.hid (disK (dstOf (m ((c : Thread nD τ).loc main_arg1) : S2x800000.Idx → BitVec 32))) (rowK (srcOf (m ((c : Thread nD τ).loc main_arg1) : S2x800000.Idx → BitVec 32))) (tgtK (dstOf (m ((c : Thread nD τ).loc main_arg1) : S2x800000.Idx → BitVec 32))) (xF m c) (w1F m c) (b1F m c)) (w2F m c) :=
  funext fun a => funext fun b => y2_at m ρ c a b

/-- THE RESULT at `(r, j)`: the fused arrangement. -/
theorem kernel_value (r : Fin 50000) (j : Fin 128) :
    (W8 (F := Ideal) m ρ c (Proc.devRef .tc main_v42) : S50000x128.Idx → EReal) (ix2 r j)
      = Cert.Gcn.kerOut (disK (dstOf (m ((c : Thread nD τ).loc main_arg1) : S2x800000.Idx → BitVec 32))) (rowK (srcOf (m ((c : Thread nD τ).loc main_arg1) : S2x800000.Idx → BitVec 32))) (tgtK (dstOf (m ((c : Thread nD τ).loc main_arg1) : S2x800000.Idx → BitVec 32))) (xF m c) (w1F m c) (b1F m c) (w2F m c) (b2F m c) r j := by
  have h : (W8 (F := Ideal) m ρ c (Proc.devRef .tc main_v42) : S50000x128.Idx → EReal)
      = ((dat2 (F := Ideal) (V7 m ρ) c).arrAt 3 cfg2.N : S50000x128.Idx → EReal) := W8_arr m ρ c 3
  rw [h]
  refine (Cert.KernelIdeal.Reg2.final2_apply_of (V7 m ρ) c r j
    (aggSD (srcOf (m ((c : Thread nD τ).loc main_arg1) : S2x800000.Idx → BitVec 32)) (dstOf (m ((c : Thread nD τ).loc main_arg1) : S2x800000.Idx → BitVec 32)) (W6 (F := Ideal) m ρ c (Proc.devRef .tc main_v30))) (shapeCast S50000x1 (disD (dstOf (m ((c : Thread nD τ).loc main_arg1) : S2x800000.Idx → BitVec 32))) shapeCasts_S50000_S50000x1)
    (shapeCast S1x128 (m ((c : Thread nD τ).loc main_arg5) : S128.Idx → EReal) shapeCasts_S128_S1x128)
    (W7_v40 m ρ c) ((W7_v17 m ρ c).trans (W3_v17 m ρ c)) (W7_v41 m ρ c)).trans ?_
  simp only [aggSD_apply, col_apply, row_apply]
  rw [y2_eq m ρ c]
  rfl

end Cert.KernelIdeal.HostV

end
-- ==== Proof.RefNames.lean ====
/-
  The reference program's data named for the graph convolution: from the edge array alone it computes the per-node
  normalising factor, the rows a gather selects for each edge's source and target, and the edges a scatter adds into
  each node. These are the reference's own stages read at one index; the fused program computes the same arrays.
-/
import proofs.«134857_j43654047596701_2_alg».proof.Proof.RefReadP
import proofs.«134857_j43654047596701_2_alg».proof.Proof.GcnSpec

noncomputable section

namespace Cert.Gcn

open Cert.ReferenceIdeal Cert.ReferenceIdeal.ReadP Idealize.ShloMosaic Idealize.ShloMosaic.ValueIdx

/-- The edge array, two rows of 800000 node numbers (sources, targets). -/
abbrev Edges := (⟨S2x800000, .i32⟩ : BufTy).Contents (Elt Ideal)

/-- Node `n`'s normalising factor: the inverse square root of its in-degree (self loop included), or zero. -/
def disR (x1 : Edges) : Fin 50000 → EReal := fun n => val_main_v16 (F := Ideal) x1 (ix1 n)

/-- The row a gather selects for edge `p`'s source: the source index wrapped, read signed and clamped into the table. -/
def rowS (x1 : Edges) : Fin 850000 → Fin 50000 := fun p =>
  ⟨min (val_main_v38 (F := Ideal) x1 (ix2 p (0 : Fin 1))).toInt.toNat (50000 - 1), by omega⟩

/-- The row a gather selects for edge `p`'s target. -/
def rowD (x1 : Edges) : Fin 850000 → Fin 50000 := fun p =>
  ⟨min (val_main_v29 (F := Ideal) x1 (ix2 p (0 : Fin 1))).toInt.toNat (50000 - 1), by omega⟩

/-- The edges a scatter adds into node `r`: those whose raw target index, read signed, is `r`. -/
def tgtR (x1 : Edges) : Fin 50000 → Finset (Fin 850000) := fun r =>
  Finset.univ.filter (fun p : Fin 850000 => (val_main_v44 (F := Ideal) x1 (ix2 p (0 : Fin 1))).toInt = (r.val : Int))

end Cert.Gcn

end
-- ==== Proof.RefValue.lean ====
/-
  The reference program's result, read at one element, is the two-layer graph convolution `refOut` over the graph data
  the program itself computes from the edge array: the normalising factor `disR`, the rows `rowS`, `rowD` that the
  gathers select for each edge's source and target, and the edges `tgtR r` that the scatter adds into node `r`.

  One layer is: the matrix product `X·W`; its rows gathered by the wrapped source column; each gathered row scaled by
  the edge's weight, the product of the factors gathered at the edge's two ends; the scaled rows added from zero into
  the node named by the raw target column; the bias row added. A gathered element is the table's element at the
  selected row, and a scattered sum at `(r, k)` is the operand's element plus the sum of the updates of the edges whose
  target is `r`, so the layer at `(r, k)` is `(0 + ∑ p ∈ tgtR r, (X·W) (rowS p) k * (dis (rowS p) * dis (rowD p))) + b k`.
  The second layer rebuilds the edge lists, the degree, the factor and the index columns from the edge array by the same
  operations, so its copies equal the first layer's, and it runs over the positive part of the first layer's result.
-/
import proofs.«134857_j43654047596701_2_alg».proof.Proof.RefNames
import proofs.«134857_j43654047596701_2_alg».proof.Proof.LibScatterRows
import proofs.«134857_j43654047596701_2_alg».proof.Proof.LibGatherRows

noncomputable section

namespace Cert.Gcn

open Cert.ReferenceIdeal Cert.ReferenceIdeal.ReadP Idealize.ShloMosaic Idealize.ShloMosaic.ValueIdx
open scoped BigOperators

/-! ## The second layer recomputes the graph data of the first

Both layers build the edge lists (the given edges followed by the self loops), the degree, the normalising factor and
the index columns from the edge array with the same operations, so the second layer's copies are the first layer's. -/

theorem v55_eq (x1 : Edges) : val_main_v55 (F := Ideal) x1 = val_main_v5 (F := Ideal) x1 := rfl
theorem v56_eq (x1 : Edges) : val_main_v56 (F := Ideal) x1 = val_main_v6 (F := Ideal) x1 := rfl

/-- The raw target column of the second scatter is that of the first. -/
theorem v94_eq (x1 : Edges) : val_main_v94 (F := Ideal) x1 = val_main_v44 (F := Ideal) x1 := by
  unfold val_main_v94 val_main_v44; rw [v56_eq]

/-- The wrapped source column of the second row gather is that of the first. -/
theorem v88_eq (x1 : Edges) : val_main_v88 (F := Ideal) x1 = val_main_v38 (F := Ideal) x1 := by
  unfold val_main_v88 val_main_v38 val_main_v87 val_main_v37 val_main_v84 val_main_v34 val_main_v86 val_main_v36
  rw [v55_eq]; rfl

/-- The wrapped source column used for the factor is the one used for the rows. -/
theorem v22_eq (x1 : Edges) : val_main_v22 (F := Ideal) x1 = val_main_v38 (F := Ideal) x1 := rfl

theorem v72_eq (x1 : Edges) : val_main_v72 (F := Ideal) x1 = val_main_v38 (F := Ideal) x1 := by
  unfold val_main_v72 val_main_v38 val_main_v71 val_main_v37 val_main_v68 val_main_v34 val_main_v70 val_main_v36
  rw [v55_eq]; rfl

theorem v79_eq (x1 : Edges) : val_main_v79 (F := Ideal) x1 = val_main_v29 (F := Ideal) x1 := by
  unfold val_main_v79 val_main_v29 val_main_v78 val_main_v28 val_main_v75 val_main_v25 val_main_v77 val_main_v27
  rw [v56_eq]; rfl

/-- The second layer's normalising factor is the first's. -/
theorem v66_eq (x1 : Edges) : val_main_v66 (F := Ideal) x1 = val_main_v16 (F := Ideal) x1 := by
  unfold val_main_v66 val_main_v16 val_main_v62 val_main_v12 val_main_v65 val_main_v15 val_main_v64 val_main_v14 val_main_v60 val_main_v10 val_main_v59 val_main_v9
  rw [v56_eq]; rfl

/-- The second layer's per-edge weight is the first's. -/
theorem v81_eq (x1 : Edges) : val_main_v81 (F := Ideal) x1 = val_main_v31 (F := Ideal) x1 := by
  unfold val_main_v81 val_main_v31 val_main_v73 val_main_v23 val_main_v80 val_main_v30
  rw [v66_eq, v72_eq, v79_eq, v22_eq]

/-! ## The pieces of one layer read at an index -/

/-- The per-edge weight: the product of the factors of the two rows the edge's source and target select. -/
theorem v31_read (x1 : Edges) (p : Fin 850000) :
    (val_main_v31 (F := Ideal) x1 : S850000.Idx → EReal) (ix1 p) = disR x1 (rowS x1 p) * disR x1 (rowD x1 p) := by
  rw [val_main_v31_apply]
  unfold val_main_v23 val_main_v30
  rw [v22_eq, Cert.LibGatherRows.hostGather_vec_apply (by decide) _ rfl rfl rfl rfl rfl rfl rfl,
    Cert.LibGatherRows.hostGather_vec_apply (by decide) _ rfl rfl rfl rfl rfl rfl rfl]
  rfl

/-- The weight column broadcast along the features, first layer. -/
theorem v41_read (x1 : Edges) (p : Fin 850000) (k : Fin 128) :
    (val_main_v41 (F := Ideal) x1 : S850000x128.Idx → EReal) (ix2 p k) = disR x1 (rowS x1 p) * disR x1 (rowD x1 p) := by
  rw [val_main_v41_apply, val_main_v40_apply]
  have e : idx_main_v40 (idx_main_v41 (ix2 p k)) = ix1 p := funext fun a => Fin.ext (by match a with | ⟨0, _⟩ => rfl)
  rw [e, v31_read]

/-- The weight column broadcast along the features, second layer. -/
theorem v91_read (x1 : Edges) (p : Fin 850000) (k : Fin 128) :
    (val_main_v91 (F := Ideal) x1 : S850000x128.Idx → EReal) (ix2 p k) = disR x1 (rowS x1 p) * disR x1 (rowD x1 p) := by
  rw [val_main_v91_apply, val_main_v90_apply, v81_eq]
  have e : idx_main_v90 (idx_main_v91 (ix2 p k)) = ix1 p := funext fun a => Fin.ext (by match a with | ⟨0, _⟩ => rfl)
  rw [e, v31_read]

/-- The bias row broadcast along the nodes, first layer. -/
theorem v47_read (x3 : (⟨S128, .f32⟩ : BufTy).Contents (Elt Ideal)) (r : Fin 50000) (k : Fin 128) :
    val_main_v47 (F := Ideal) x3 (ix2 r k) = x3 (ix1 k) := by
  rw [val_main_v47_apply, val_main_v46_apply]
  have e : idx_main_v46 (idx_main_v47 (ix2 r k)) = ix1 k := funext fun a => Fin.ext (by match a with | ⟨0, _⟩ => rfl)
  rw [e]

/-- The bias row broadcast along the nodes, second layer. -/
theorem v97_read (x5 : (⟨S128, .f32⟩ : BufTy).Contents (Elt Ideal)) (r : Fin 50000) (k : Fin 128) :
    val_main_v97 (F := Ideal) x5 (ix2 r k) = x5 (ix1 k) := by
  rw [val_main_v97_apply, val_main_v96_apply]
  have e : idx_main_v96 (idx_main_v97 (ix2 r k)) = ix1 k := funext fun a => Fin.ext (by match a with | ⟨0, _⟩ => rfl)
  rw [e]

/-- The array the first scatter adds into is zero. -/
theorem v43_read (r : Fin 50000) (k : Fin 128) : (val_main_v43 (F := Ideal) : S50000x128.Idx → EReal) (ix2 r k) = 0 := by
  rw [val_main_v43_apply, val_main_cst_9_apply]; exact Ideal.ofBits_zero_f32

/-- The array the second scatter adds into is zero. -/
theorem v93_read (r : Fin 50000) (k : Fin 128) : (val_main_v93 (F := Ideal) : S50000x128.Idx → EReal) (ix2 r k) = 0 := by
  rw [val_main_v93_apply, val_main_cst_21_apply]; exact Ideal.ofBits_zero_f32

/-- The first matrix product at `(a, k)`. -/
theorem v32_read (x0 : (⟨S50000x128, .f32⟩ : BufTy).Contents (Elt Ideal)) (x2 : (⟨S128x128, .f32⟩ : BufTy).Contents (Elt Ideal))
    (a : Fin 50000) (k : Fin 128) :
    (val_main_v32 (F := Ideal) x0 x2 : S50000x128.Idx → EReal) (ix2 a k)
      = mm (fun a b => x0 (ix2 a b)) (fun a b => x2 (ix2 a b)) a k := by
  rw [val_main_v32_apply]
  unfold mm
  refine Finset.sum_congr rfl fun i _ => ?_
  have el : lidx_main_v32 (ix2 a k) i = ix2 a i :=
    funext fun c => Fin.ext (by match c with | ⟨0, _⟩ => rfl | ⟨1, _⟩ => rfl)
  have er : ridx_main_v32 (ix2 a k) i = ix2 i k :=
    funext fun c => Fin.ext (by match c with | ⟨0, _⟩ => rfl | ⟨1, _⟩ => rfl)
  rw [el, er]

/-- The second matrix product at `(a, k)`, over the first layer's positive part. -/
theorem v82_read (x0 : (⟨S50000x128, .f32⟩ : BufTy).Contents (Elt Ideal)) (x1 : Edges)
    (x2 : (⟨S128x128, .f32⟩ : BufTy).Contents (Elt Ideal)) (x3 : (⟨S128, .f32⟩ : BufTy).Contents (Elt Ideal))
    (x4 : (⟨S128x128, .f32⟩ : BufTy).Contents (Elt Ideal)) (a : Fin 50000) (k : Fin 128) :
    (val_main_v82 (F := Ideal) x0 x1 x2 x3 x4 : S50000x128.Idx → EReal) (ix2 a k)
      = mm (fun a b => val_main_v49 (F := Ideal) x0 x1 x2 x3 (ix2 a b)) (fun a b => x4 (ix2 a b)) a k := by
  rw [val_main_v82_apply]
  unfold mm
  refine Finset.sum_congr rfl fun i _ => ?_
  have el : lidx_main_v82 (ix2 a k) i = ix2 a i :=
    funext fun c => Fin.ext (by match c with | ⟨0, _⟩ => rfl | ⟨1, _⟩ => rfl)
  have er : ridx_main_v82 (ix2 a k) i = ix2 i k :=
    funext fun c => Fin.ext (by match c with | ⟨0, _⟩ => rfl | ⟨1, _⟩ => rfl)
  rw [el, er]

/-! ## One layer -/

/-- One layer of the reference over any table `xw` of rows: rows gathered by the wrapped source column, each scaled by
    its edge's weight, added from zero into the node the raw target column names, then the bias. Read at `(r, k)` it is
    `(0 + ∑ p ∈ tgtR r, xw (rowS p) k * (dis (rowS p) * dis (rowD p))) + b k`. -/
theorem layer_read (x1 : Edges)
    (xw zero bb : (⟨S50000x128, .f32⟩ : BufTy).Contents (Elt Ideal))
    (nrm : (⟨S850000x128, .f32⟩ : BufTy).Contents (Elt Ideal)) (b : Fin 128 → EReal)
    (hz : ∀ r k, zero (ix2 r k) = 0)
    (hn : ∀ p k, nrm (ix2 p k) = disR x1 (rowS x1 p) * disR x1 (rowD x1 p))
    (hb : ∀ r k, bb (ix2 r k) = b k) (r : Fin 50000) (k : Fin 128) :
    (addf (F := Ideal) (φ := .f32)
        (Host.scatterAdd scatter_S50000x128_S850000x1_S850000x128_1_0_0_1 zero (val_main_v44 (F := Ideal) x1)
          (mulf (Host.gather gather_S50000x128_S850000x1_S850000x128_1_0_n_n_0_1_1128 xw (val_main_v38 (F := Ideal) x1)) nrm)) bb
      : S50000x128.Idx → EReal) (ix2 r k)
      = (0 + ∑ p ∈ tgtR x1 r, xw (ix2 (rowS x1 p) k) * (disR x1 (rowS x1 p) * disR x1 (rowD x1 p))) + b k := by
  show (Host.scatterAdd (F := Ideal) (φ := .f32) scatter_S50000x128_S850000x1_S850000x128_1_0_0_1 zero (val_main_v44 (F := Ideal) x1)
        (mulf (Host.gather gather_S50000x128_S850000x1_S850000x128_1_0_n_n_0_1_1128 xw (val_main_v38 (F := Ideal) x1)) nrm)
        (ix2 r k) : EReal) + bb (ix2 r k) = _
  unfold Host.scatterAdd
  rw [hb, Ideal.hostScatterAdd_def, Cert.LibScatterRows.hostScatterAdd_rows_apply _ rfl rfl rfl rfl, hz]
  unfold tgtR
  refine congrArg (fun t : EReal => (0 + t) + b k) (Finset.sum_congr rfl fun p _ => ?_)
  show (Host.gather gather_S50000x128_S850000x1_S850000x128_1_0_n_n_0_1_1128 xw (val_main_v38 (F := Ideal) x1) (ix2 p k) : EReal)
      * nrm (ix2 p k) = _
  rw [hn, Cert.LibGatherRows.hostGather_rows_apply (by decide) _ rfl rfl rfl rfl rfl rfl rfl]
  rfl

/-- The first layer at `(r, k)`. -/
theorem v48_read (x0 : (⟨S50000x128, .f32⟩ : BufTy).Contents (Elt Ideal)) (x1 : Edges)
    (x2 : (⟨S128x128, .f32⟩ : BufTy).Contents (Elt Ideal)) (x3 : (⟨S128, .f32⟩ : BufTy).Contents (Elt Ideal))
    (r : Fin 50000) (k : Fin 128) :
    (val_main_v48 (F := Ideal) x0 x1 x2 x3 : S50000x128.Idx → EReal) (ix2 r k)
      = refLayer (disR x1) (rowS x1) (rowD x1) (tgtR x1) (fun a b => x0 (ix2 a b)) (fun a b => x2 (ix2 a b))
          (fun a => x3 (ix1 a)) r k := by
  unfold val_main_v48 val_main_v45 val_main_v42 val_main_v39
  rw [layer_read x1 (val_main_v32 (F := Ideal) x0 x2) (val_main_v43 (F := Ideal)) (val_main_v47 (F := Ideal) x3)
    (val_main_v41 (F := Ideal) x1) (fun a => x3 (ix1 a)) v43_read (v41_read x1) (v47_read x3) r k]
  unfold refLayer
  simp only [v32_read]

/-- The positive part of the first layer at `(r, k)`. -/
theorem v49_read (x0 : (⟨S50000x128, .f32⟩ : BufTy).Contents (Elt Ideal)) (x1 : Edges)
    (x2 : (⟨S128x128, .f32⟩ : BufTy).Contents (Elt Ideal)) (x3 : (⟨S128, .f32⟩ : BufTy).Contents (Elt Ideal))
    (r : Fin 50000) (k : Fin 128) :
    (val_main_v49 (F := Ideal) x0 x1 x2 x3 : S50000x128.Idx → EReal) (ix2 r k)
      = max (refLayer (disR x1) (rowS x1) (rowD x1) (tgtR x1) (fun a b => x0 (ix2 a b)) (fun a b => x2 (ix2 a b))
          (fun a => x3 (ix1 a)) r k) 0 := by
  rw [val_main_v49_apply, Ideal.maximumf_def, v48_read, val_main_call1_v0_apply, val_main_call1_cst_apply]
  congr 1
  exact Ideal.ofBits_zero_f32

/-! ## The reference's result -/

theorem ref_value (x0 : (⟨S50000x128, .f32⟩ : BufTy).Contents (Elt Ideal)) (x1 : Edges)
    (x2 : (⟨S128x128, .f32⟩ : BufTy).Contents (Elt Ideal)) (x3 : (⟨S128, .f32⟩ : BufTy).Contents (Elt Ideal))
    (x4 : (⟨S128x128, .f32⟩ : BufTy).Contents (Elt Ideal)) (x5 : (⟨S128, .f32⟩ : BufTy).Contents (Elt Ideal))
    (r : Fin 50000) (j : Fin 128) :
    (val_main_v98 (F := Ideal) x0 x1 x2 x3 x4 x5 : S50000x128.Idx → EReal) (ix2 r j)
      = refOut (disR x1) (rowS x1) (rowD x1) (tgtR x1) (fun a b => x0 (ix2 a b)) (fun a b => x2 (ix2 a b)) (fun a => x3 (ix1 a))
          (fun a b => x4 (ix2 a b)) (fun a => x5 (ix1 a)) r j := by
  unfold val_main_v98 val_main_v95 val_main_v92 val_main_v89
  rw [v94_eq, v88_eq,
    layer_read x1 (val_main_v82 (F := Ideal) x0 x1 x2 x3 x4) (val_main_v93 (F := Ideal)) (val_main_v97 (F := Ideal) x5)
      (val_main_v91 (F := Ideal) x1) (fun a => x5 (ix1 a)) v93_read (v91_read x1) (v97_read x5) r j]
  unfold refOut refLayer
  simp only [v82_read, v49_read]
  rfl

end Cert.Gcn

end
-- ==== Proof.GcnAlgebra.lean ====
/-
  The two arrangements of the two-layer graph convolution agree over the extended reals.

  Multiplication on the extended reals is commutative and associative, so the only law that needs care is taking the
  common factor `q = dis r` out of a finite sum: `(∑ p ∈ A, c p * q) = (∑ p ∈ A, c p) * q`. On the extended reals
  right distributivity `(y + z) * q = y * q + z * q` can fail (for instance `(⊤ + ⊥) * q`), but it holds for every
  `y, z` when `0 ≤ q` and `q ≠ ⊤`; induction on the finite index set then gives the law for sums. No finiteness of
  the features or the weights is needed.

  For an edge `p ∈ T r` the target row is `rd p = r`, hence
      mm X W (rs p) k * (dis (rs p) * dis (rd p)) = (mm X W (rs p) k * dis (rs p)) * dis r,
  and one layer of the reference equals the fused layer. Using this for both layers gives the result.

  The second statement bounds the inverse square root of a positive extended real: it is `0` at `⊤` and the real number
  `(√r)⁻¹ ≥ 0` at a positive real `r`, so it lies in `[0, ⊤)`.
-/
import proofs.«134857_j43654047596701_2_alg».proof.Proof.GcnSpec
import Mathlib.Data.EReal.Operations

noncomputable section

namespace Cert.Gcn

open scoped BigOperators

/-- A factor in `[0, ⊤)` moves out of a finite sum on the right. -/
theorem sum_mul_of_nonneg_of_ne_top {ι : Type} (A : Finset ι) (c : ι → EReal) (q : EReal)
    (hq : 0 ≤ q) (hq' : q ≠ ⊤) : (∑ p ∈ A, c p * q) = (∑ p ∈ A, c p) * q := by
  classical
  induction A using Finset.induction_on with
  | empty => simp
  | insert a s ha ih =>
    rw [Finset.sum_insert ha, Finset.sum_insert ha, ih,
      EReal.right_distrib_of_nonneg_of_ne_top hq hq']

/-- One layer of the reference equals one fused layer: scale the rows of `X·W`, gather and add, scale the sums. -/
theorem refLayer_eq (dis : Fin 50000 → EReal) (rs rd : Fin 850000 → Fin 50000)
    (T : Fin 50000 → Finset (Fin 850000))
    (hdis : ∀ r, 0 ≤ dis r ∧ dis r ≠ ⊤) (hrd : ∀ r p, p ∈ T r → rd p = r)
    (X : Feat) (W : Wgt) (b : Bia) :
    refLayer dis rs rd T X W b = fun r k => agg rs T (scaled dis X W) r k * dis r + b k := by
  funext r k
  simp only [refLayer, agg, scaled, zero_add]
  congr 1
  rw [← sum_mul_of_nonneg_of_ne_top _ _ _ (hdis r).1 (hdis r).2]
  refine Finset.sum_congr rfl (fun p hp => ?_)
  rw [hrd r p hp, mul_assoc]

theorem kerOut_eq_refOut (dis : Fin 50000 → EReal) (rs rd : Fin 850000 → Fin 50000) (T : Fin 50000 → Finset (Fin 850000))
    (hdis : ∀ r, 0 ≤ dis r ∧ dis r ≠ ⊤) (hrd : ∀ r p, p ∈ T r → rd p = r)
    (x : Feat) (w1 : Wgt) (b1 : Bia) (w2 : Wgt) (b2 : Bia) :
    kerOut dis rs T x w1 b1 w2 b2 = refOut dis rs rd T x w1 b1 w2 b2 := by
  unfold refOut
  rw [refLayer_eq dis rs rd T hdis hrd, refLayer_eq dis rs rd T hdis hrd]
  rfl

/-- The inverse square root of a positive extended real lies in `[0, ⊤)`. -/
theorem rsqrt_pos_bounds (y : EReal) (hy : 0 < y) : 0 ≤ Idealize.ShloMosaic.Ideal.rsqrt y ∧ Idealize.ShloMosaic.Ideal.rsqrt y ≠ ⊤ := by
  induction y using EReal.rec with
  | bot => exact absurd hy (by simp)
  | top => simp
  | coe r =>
    have hr : 0 < r := by exact_mod_cast hy
    rw [Idealize.ShloMosaic.Ideal.rsqrt_coe, if_neg (not_lt.mpr hr.le), if_neg hr.ne']
    refine ⟨?_, EReal.coe_ne_top _⟩
    exact_mod_cast inv_nonneg.mpr (Real.sqrt_nonneg r)

end Cert.Gcn

end
-- ==== Proof.RefDis.lean ====
/-
  Two facts about the reference program's index arithmetic and normalising factors, read at an index.

  The normalising factor of node `n` is `select (deg > 0) (rsqrt (max deg eps)) 0` at `n`, where `deg` is the node's
  in-degree as the scatter-add computes it and `eps` a literal. Nothing about `deg` or `eps` is needed: when `deg > 0`
  then `max deg eps ≥ deg > 0`, and the inverse square root of a positive extended real lies in `[0, ⊤)`; otherwise the
  value is the literal zero. Either way the factor lies in `[0, ⊤)`.

  The target index of an edge is wrapped before rows are gathered by it: `select (t < 0) (t + 50000) t`, as signed
  32-bit words. When the raw index `t`, read as a signed integer, is a node number `r < 50000`, it is not negative, so
  the wrap keeps it, and clamping to `[0, 49999]` keeps it too: the gathered row is row `r`.
-/
import proofs.«134857_j43654047596701_2_alg».proof.Proof.RefReadP
import proofs.«134857_j43654047596701_2_alg».proof.Proof.GcnAlgebra

noncomputable section

namespace Cert.Gcn

open Cert.ReferenceIdeal Cert.ReferenceIdeal.ReadP Idealize.ShloMosaic Idealize.ShloMosaic.ValueIdx

/-- `select (deg > 0) (rsqrt (max deg eps)) 0` lies in `[0, ⊤)`, whatever `deg` and `eps` are. -/
theorem select_rsqrt_bounds (deg eps : EReal) :
    0 ≤ Scalar.select (Ideal.cmp .ogt deg 0) (Ideal.rsqrt (max deg eps)) (0 : EReal) ∧
    Scalar.select (Ideal.cmp .ogt deg 0) (Ideal.rsqrt (max deg eps)) (0 : EReal) ≠ ⊤ := by
  by_cases h : 0 < deg
  · have hc : Ideal.cmp .ogt deg 0 = 1#1 := by simp [Ideal.cmp, h]
    rw [hc, select_one]
    exact rsqrt_pos_bounds _ (lt_of_lt_of_le h (le_max_left _ _))
  · have hc : Ideal.cmp .ogt deg 0 = 0#1 := by simp [Ideal.cmp, h]
    rw [hc, select_zero]
    exact ⟨le_rfl, EReal.zero_ne_top⟩

/-- The normalising factor of every node lies in `[0, ⊤)`. -/
theorem dis_bounds (x1 : (⟨S2x800000, .i32⟩ : BufTy).Contents (Elt Ideal)) (n : Fin 50000) :
    0 ≤ (val_main_v16 (F := Ideal) x1 (ix1 n) : EReal) ∧ (val_main_v16 (F := Ideal) x1 (ix1 n) : EReal) ≠ ⊤ := by
  rw [val_main_v16_apply, val_main_v12_apply, val_main_v15_apply, val_main_v14_apply, val_main_v11_apply,
    val_main_cst_1_apply, val_main_call0_v1_apply, val_main_call0_v0_apply, val_main_cst_3_apply]
  have h0 : FloatOps.ofBits (F := Ideal) .f32 0x00000000#32 = (0 : EReal) := Ideal.ofBits_zero_f32
  rw [h0]
  generalize val_main_v10 (F := Ideal) x1 (ix1 n) = deg
  generalize val_main_v13 (F := Ideal) (ix1 n) = eps
  exact select_rsqrt_bounds deg eps

/-- An edge whose raw target index is the node number `r` gathers row `r`: the wrap and the clamp keep it. -/
theorem tgt_row (x1 : (⟨S2x800000, .i32⟩ : BufTy).Contents (Elt Ideal)) (p : Fin 850000) (r : Fin 50000)
    (h : (val_main_v44 (F := Ideal) x1 (ix2 p (0 : Fin 1))).toInt = (r.val : Int)) :
    min (val_main_v29 (F := Ideal) x1 (ix2 p (0 : Fin 1))).toInt.toNat (50000 - 1) = r.val := by
  rw [val_main_v44_apply] at h
  rw [val_main_v29_apply, val_main_v28_apply, val_main_v25_apply, val_main_v24_apply, val_main_c_5_apply]
  have e : idx_main_v29 (ix2 p (0 : Fin 1)) = idx_main_v44 (ix2 p (0 : Fin 1)) := by
    funext a
    match a with
    | ⟨0, _⟩ => rfl
  rw [e]
  generalize val_main_v6 (F := Ideal) x1 (idx_main_v44 (ix2 p (0 : Fin 1))) = v at h ⊢
  have hr := r.isLt
  have hc : IntOp.cmpi .slt v 0#32 = 0#1 := by
    have hs : v.slt 0#32 = false := by
      simp only [BitVec.slt, BitVec.toInt_zero, h]
      simp
    simp [IntOp.cmpi, hs]
  rw [hc, select_zero, h]
  omega

end Cert.Gcn

end
-- ==== Proof.Bridge.lean ====
/-
  The two programs compute the same graph data from the edge array: the fused program's edge lists, index columns and
  per-node factor are, operation by operation, the reference's. So the fused arrangement over the fused program's
  data is the reference's arrangement over the reference's data: the common factor of a node's incoming messages is
  moved out of their sum, which is allowed because the factor lies in `[0, ⊤)`, and an edge added into node `r` has
  its target row equal to `r`.
-/
import proofs.«134857_j43654047596701_2_alg».proof.Proof.KIndex
import proofs.«134857_j43654047596701_2_alg».proof.Proof.RefNames
import proofs.«134857_j43654047596701_2_alg».proof.Proof.RefDis
import proofs.«134857_j43654047596701_2_alg».proof.Proof.GcnAlgebra

set_option maxRecDepth 16384

noncomputable section

namespace Cert.Gcn

open Cert.KernelIdeal.HostV Idealize.ShloMosaic Idealize.ShloMosaic.ValueIdx

variable (x1 : Edges)

/-- The source lists agree. -/
theorem srcOf_eq : srcOf x1 = Cert.ReferenceIdeal.ReadP.val_main_v5 (F := Ideal) x1 := by
  unfold srcOf Cert.ReferenceIdeal.ReadP.val_main_v5 Cert.ReferenceIdeal.ReadP.val_main_v1 Cert.ReferenceIdeal.ReadP.val_main_v0 Cert.ReferenceIdeal.ReadP.val_main_v4
  rfl

/-- The target lists agree. -/
theorem dstOf_eq : dstOf x1 = Cert.ReferenceIdeal.ReadP.val_main_v6 (F := Ideal) x1 := by
  unfold dstOf Cert.ReferenceIdeal.ReadP.val_main_v6 Cert.ReferenceIdeal.ReadP.val_main_v3 Cert.ReferenceIdeal.ReadP.val_main_v2 Cert.ReferenceIdeal.ReadP.val_main_v4
  rfl

/-- The raw target columns the scatters take agree. -/
theorem rawCol_eq : rawCol (dstOf x1) = Cert.ReferenceIdeal.ReadP.val_main_v44 (F := Ideal) x1 := by
  rw [dstOf_eq]
  unfold rawCol Cert.ReferenceIdeal.ReadP.val_main_v44
  rfl

/-- The wrapped source columns the gathers take agree. -/
theorem wrapCol_eq : wrapCol (srcOf x1) = Cert.ReferenceIdeal.ReadP.val_main_v38 (F := Ideal) x1 := by
  rw [srcOf_eq]
  unfold wrapCol Cert.ReferenceIdeal.ReadP.val_main_v38 Cert.ReferenceIdeal.ReadP.val_main_v37 Cert.ReferenceIdeal.ReadP.val_main_v34 Cert.ReferenceIdeal.ReadP.val_main_v36 Cert.ReferenceIdeal.ReadP.val_main_v33
    Cert.ReferenceIdeal.ReadP.val_main_v35 Cert.ReferenceIdeal.ReadP.val_main_c_7 Cert.ReferenceIdeal.ReadP.val_main_c_8
  rfl

/-- The per-node factors agree. -/
theorem disD_eq : disD (dstOf x1) = Cert.ReferenceIdeal.ReadP.val_main_v16 (F := Ideal) x1 := by
  rw [dstOf_eq]
  unfold disD degD rawCol Cert.ReferenceIdeal.ReadP.val_main_v16 Cert.ReferenceIdeal.ReadP.val_main_v12 Cert.ReferenceIdeal.ReadP.val_main_v15 Cert.ReferenceIdeal.ReadP.val_main_v14 Cert.ReferenceIdeal.ReadP.val_main_v10
    Cert.ReferenceIdeal.ReadP.val_main_v9 Cert.ReferenceIdeal.ReadP.val_main_v8 Cert.ReferenceIdeal.ReadP.val_main_v7 Cert.ReferenceIdeal.ReadP.val_main_v11 Cert.ReferenceIdeal.ReadP.val_main_v13 Cert.ReferenceIdeal.ReadP.val_main_call0_v1
    Cert.ReferenceIdeal.ReadP.val_main_call0_v0 Cert.ReferenceIdeal.ReadP.val_main_cst Cert.ReferenceIdeal.ReadP.val_main_cst_0 Cert.ReferenceIdeal.ReadP.val_main_cst_1 Cert.ReferenceIdeal.ReadP.val_main_cst_2 Cert.ReferenceIdeal.ReadP.val_main_cst_3
  rfl

theorem disK_eq : disK (dstOf x1) = disR x1 := by
  unfold disK disR
  rw [disD_eq]

theorem rowK_eq : rowK (srcOf x1) = rowS x1 := by
  funext p
  refine Fin.ext ?_
  show min (wrapCol (srcOf x1) (ix2 p (0 : Fin 1))).toInt.toNat (50000 - 1)
    = min (Cert.ReferenceIdeal.ReadP.val_main_v38 (F := Ideal) x1 (ix2 p (0 : Fin 1))).toInt.toNat (50000 - 1)
  rw [wrapCol_eq]

theorem tgtK_eq : tgtK (dstOf x1) = tgtR x1 := by
  unfold tgtK tgtR
  rw [rawCol_eq]

/-- The fused arrangement over the fused program's data is the reference's arrangement over the reference's data. -/
theorem fused_eq_ref (x : Feat) (w1 : Wgt) (b1 : Bia) (w2 : Wgt) (b2 : Bia) :
    kerOut (disK (dstOf x1)) (rowK (srcOf x1)) (tgtK (dstOf x1)) x w1 b1 w2 b2
      = refOut (disR x1) (rowS x1) (rowD x1) (tgtR x1) x w1 b1 w2 b2 := by
  rw [disK_eq, rowK_eq, tgtK_eq]
  refine kerOut_eq_refOut (disR x1) (rowS x1) (rowD x1) (tgtR x1) (fun n => dis_bounds x1 n) (fun r p hp => ?_) x w1 b1 w2 b2
  have hp' : (Cert.ReferenceIdeal.ReadP.val_main_v44 (F := Ideal) x1 (ix2 p (0 : Fin 1))).toInt = (r.val : Int) :=
    (Finset.mem_filter.mp (show p ∈ Finset.univ.filter (fun p : Fin 850000 =>
      (Cert.ReferenceIdeal.ReadP.val_main_v44 (F := Ideal) x1 (ix2 p (0 : Fin 1))).toInt = (r.val : Int)) from hp)).2
  exact Fin.ext (tgt_row x1 p r hp')

end Cert.Gcn

end
-- ==== Proof.lean ====
/-
  The certificate of a fused two-layer graph convolution against its plain reference.

  Both programs take node features `x` (50000 × 128), an edge array (2 × 800000 node numbers), two weight matrices and
  two biases, append one self loop per node to the edge list, and compute per node the factor `dis = 1/√deg` (zero
  where the in-degree is zero). One layer of the reference gathers the rows of `x·w` by source index, scales each
  message by `dis[src]·dis[dst]`, adds the messages up per target node and adds the bias; the reference is a layer,
  the positive part, and a second layer. The fused program does the same in three tiled passes with an aggregation
  (gather by source, add up per target) after each of the first two: the first pass writes `(x·w₁)` with every row
  scaled by its node's factor; the second scales the aggregated rows by the factor, adds the bias, takes the positive
  part, multiplies by `w₂` and scales the rows again; the last scales the aggregated rows and adds the bias.

  At the ideal instance (floats are extended reals, operations exact, a change of float format the identity) the two
  agree element by element: an edge `p` added into node `r` has target row `r`, so `dis[dst p] = dis r` is a
  common factor of node `r`'s incoming messages, and a factor in `[0, ⊤)` may be moved out of a finite sum of
  extended reals. No finiteness of the features or weights is used.

  The three frames are the generated ones (the reference's is its run with the result dropped); the idealization
  rewrote no operation, so there is nothing to preserve; the modules under Proof/ carry the value side: the fused
  program's run with its result named, its host stretches and regions read at an element, the reference read at an
  element, and the algebra that joins them.
-/
import proofs.«134857_j43654047596701_2_alg».proof.Defs
import proofs.«134857_j43654047596701_2_alg».proof.Proof.Gen.Kernel
import proofs.«134857_j43654047596701_2_alg».proof.Proof.Gen.Kernel.Skeleton
import proofs.«134857_j43654047596701_2_alg».proof.Proof.Gen.Kernel.Launch
import proofs.«134857_j43654047596701_2_alg».proof.Proof.Gen.Kernel.Points
import proofs.«134857_j43654047596701_2_alg».proof.Proof.Gen.Kernel.Frame
import proofs.«134857_j43654047596701_2_alg».proof.Proof.Gen.KernelIdeal
import proofs.«134857_j43654047596701_2_alg».proof.Proof.Gen.KernelIdeal.Skeleton
import proofs.«134857_j43654047596701_2_alg».proof.Proof.Gen.KernelIdeal.Launch
import proofs.«134857_j43654047596701_2_alg».proof.Proof.Gen.KernelIdeal.Points
import proofs.«134857_j43654047596701_2_alg».proof.Proof.Gen.KernelIdeal.Frame
import proofs.«134857_j43654047596701_2_alg».proof.Proof.Gen.ReferenceIdeal
import proofs.«134857_j43654047596701_2_alg».proof.Proof.Gen.Pre_finite_inputs
import proofs.«134857_j43654047596701_2_alg».proof.Proof.RefRunP
import proofs.«134857_j43654047596701_2_alg».proof.Proof.RefReadP
import proofs.«134857_j43654047596701_2_alg».proof.Proof.KRun
import proofs.«134857_j43654047596701_2_alg».proof.Proof.KValue
import proofs.«134857_j43654047596701_2_alg».proof.Proof.RefValue
import proofs.«134857_j43654047596701_2_alg».proof.Proof.Bridge
import Idealize.ShloMosaic.Adequacy
import Idealize.ShloMosaic.Init

set_option maxRecDepth 16384

noncomputable section

namespace Cert.Proof

open Idealize.ShloMosaic Idealize.ShloMosaic.TcCoe Idealize.SL.Sem Idealize.ShloMosaic.ValueIdx

/-- The word-level program runs and leaves its arguments as launched. -/
theorem frame_k : Cert.frame_Kernel := fun m ρ _ => Cert.Kernel.Gen.frame m ρ

/-- So does the idealized program. -/
theorem frame_ki : Cert.frame_KernelIdeal := fun m ρ _ => Cert.KernelIdeal.Gen.frame m ρ

/-- The reference's frame is its run with the result dropped. -/
theorem frame_ri : Cert.frame_ReferenceIdeal := fun m ρ _ =>
  (θ_run Cert.ReferenceIdeal.defs _ _).mono (fun _ h c => (h c).2) (Cert.ReferenceIdeal.ValueP.run (F := Ideal) m ρ)

/-- The idealization rewrote no operation. -/
theorem preserves : Cert.preserves_Kernel_KernelIdeal := trivial

/-- From memories agreeing on the arguments both programs end with the same result array: element `(r, j)` of the fused
    program's is the fused arrangement of the layers over its own graph data, the reference's is the reference's
    arrangement over the reference's, and the two are equal. -/
theorem algebraic : Cert.algebraic_KernelIdeal_ReferenceIdeal := by
  intro m ρ m' ρ' _ hagree
  refine ⟨fun c => Cert.KernelIdeal.Gen.W8 (F := Ideal) m ρ c (Proc.devRef .tc Cert.KernelIdeal.main_v42),
    Cert.KernelIdeal.RunV.run_value m ρ, ?_⟩
  refine (θ_run Cert.ReferenceIdeal.defs _ _).mono (fun _ h c => ⟨(h c).1.trans ?_, (h c).2⟩)
    (Cert.ReferenceIdeal.ValueP.run (F := Ideal) m' ρ')
  obtain ⟨h0, h1, h2, h3, h4, h5⟩ := hagree c
  rw [Cert.ReferenceIdeal.ReadP.val_main_v98_eq, h0, h1, h2, h3, h4, h5]
  funext i
  obtain ⟨r, j, rfl⟩ : ∃ (r : Fin 50000) (j : Fin 128), i = ix2 r j := ⟨i 0, i 1, eq_ix2 i⟩
  refine (Cert.Gcn.ref_value _ _ _ _ _ _ r j).trans ?_
  refine Eq.trans ?_ (Cert.KernelIdeal.HostV.kernel_value m ρ c r j).symm
  exact (congrFun (congrFun (Cert.Gcn.fused_eq_ref _ _ _ _ _ _) r) j).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
